-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x64 : Shape := ⟨3, ![8, 16384, 64]⟩
abbrev S8x16384x16 : Shape := ⟨3, ![8, 16384, 16]⟩
abbrev S64x64 : Shape := ⟨2, ![64, 64]⟩
abbrev S64 : Shape := ⟨1, ![64]⟩
abbrev S_ : Shape := ⟨0, ![]⟩

class Facts : Prop where
  bcast_S_S8x16384x64 : S_.BroadcastsInDim S8x16384x64 (![] : Fin 0 → Fin S8x16384x64.rank)
  reducesTo_S8x16384x64_S_d0_1_2 : S8x16384x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x16384x64 .f32) (main_arg1 : IVec S8x16384x16 32) (main_arg2 : FVec F S64x64 .f32) (main_arg3 : FVec F S64 .f32) (main_arg4 : FVec F S64 .f32) : IVec S_ 1 :=
  let main_v0 : FVec F S8x16384x64 .f32 := Host.absf main_arg0
  let main_cst : FVec F S_ .f32 := constant S_ .f32 0x7F800000#32
  let main_v1 : FVec F S8x16384x64 .f32 := broadcastInDim S8x16384x64 ![] bcast_S_S8x16384x64 main_cst
  let main_v2 : IVec S8x16384x64 1 := cmpf .olt main_v0 main_v1
  let main_c : IVec S_ 1 := constantI S_ 1 1#1
  let main_v3 : IVec S_ 1 := (fun x v => Host.reduce IntOp.andi x v reducesTo_S8x16384x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x16384x64 : Shape := ⟨3, ![8, 16384, 64]⟩
abbrev S8x16384x16 : Shape := ⟨3, ![8, 16384, 16]⟩
abbrev S64x64 : Shape := ⟨2, ![64, 64]⟩
abbrev S64 : Shape := ⟨1, ![64]⟩
abbrev S8x262144x1 : Shape := ⟨3, ![8, 262144, 1]⟩
abbrev S_ : Shape := ⟨0, ![]⟩
abbrev S1 : Shape := ⟨1, ![1]⟩
abbrev S1x1x1 : Shape := ⟨3, ![1, 1, 1]⟩
abbrev S8x262144 : Shape := ⟨2, ![8, 262144]⟩
abbrev S8x262144x64 : Shape := ⟨3, ![8, 262144, 64]⟩
abbrev S8x16384x16x64 : Shape := ⟨4, ![8, 16384, 16, 64]⟩
abbrev S131072x64 : Shape := ⟨2, ![131072, 64]⟩
abbrev S2x64 : Shape := ⟨2, ![2, 64]⟩
abbrev S4096x64 : Shape := ⟨2, ![4096, 64]⟩
abbrev S1x64 : Shape := ⟨2, ![1, 64]⟩

abbrev nBuf : Space → Nat
  | .hbm => 56
  | .vmem => 14
  | .smem => 0
  | _ => 0

abbrev bufTy : (tb : Table) → Fin (tcTables nBuf tb) → BufTy
  | .hbm, ⟨0, _⟩ => ⟨S8x16384x64, .f32⟩
  | .hbm, ⟨1, _⟩ => ⟨S8x16384x16, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S8x262144x1, .i32⟩
  | .hbm, ⟨6, _⟩ => ⟨S_, .i32⟩
  | .hbm, ⟨7, _⟩ => ⟨S8x262144x1, .i32⟩
  | .hbm, ⟨8, _⟩ => ⟨S8x262144x1, .i1⟩
  | .hbm, ⟨9, _⟩ => ⟨S_, .i32⟩
  | .hbm, ⟨10, _⟩ => ⟨S8x262144x1, .i32⟩
  | .hbm, ⟨11, _⟩ => ⟨S8x262144x1, .i32⟩
  | .hbm, ⟨12, _⟩ => ⟨S8x262144x1, .i32⟩
  | .hbm, ⟨13, _⟩ => ⟨S1, .i32⟩
  | .hbm, ⟨14, _⟩ => ⟨S_, .i32⟩
  | .hbm, ⟨15, _⟩ => ⟨S8x262144x1, .i32⟩
  | .hbm, ⟨16, _⟩ => ⟨S8x262144x1, .i1⟩
  | .hbm, ⟨17, _⟩ => ⟨S1x1x1, .i32⟩
  | .hbm, ⟨18, _⟩ => ⟨S8x262144x1, .i32⟩
  | .hbm, ⟨19, _⟩ => ⟨S8x262144x1, .i1⟩
  | .hbm, ⟨20, _⟩ => ⟨S8x262144x1, .i1⟩
  | .hbm, ⟨21, _⟩ => ⟨S_, .i1⟩
  | .hbm, ⟨22, _⟩ => ⟨S8x262144, .i1⟩
  | .hbm, ⟨23, _⟩ => ⟨S8x262144x64, .f32⟩
  | .hbm, ⟨24, _⟩ => ⟨S8x262144x64, .i1⟩
  | .hbm, ⟨25, _⟩ => ⟨S_, .f32⟩
  | .hbm, ⟨26, _⟩ => ⟨S8x262144x64, .f32⟩
  | .hbm, ⟨27, _⟩ => ⟨S8x262144x64, .f32⟩
  | .hbm, ⟨28, _⟩ => ⟨S8x16384x16x64, .f32⟩
  | .hbm, ⟨29, _⟩ => ⟨S_, .f32⟩
  | .hbm, ⟨30, _⟩ => ⟨S8x16384x64, .f32⟩
  | .hbm, ⟨31, _⟩ => ⟨S131072x64, .f32⟩
  | .hbm, ⟨32, _⟩ => ⟨S131072x64, .f32⟩
  | .hbm, ⟨33, _⟩ => ⟨S2x64, .f32⟩
  | .hbm, ⟨34, _⟩ => ⟨S1x64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S131072x64, .f32⟩
  | .hbm, ⟨55, _⟩ => ⟨S8x16384x64, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S4096x64, .f32⟩
  | .local _ .vmem, ⟨4, _⟩ => ⟨S4096x64, .f32⟩
  | .local _ .vmem, ⟨5, _⟩ => ⟨S2x64, .f32⟩
  | .local _ .vmem, ⟨6, _⟩ => ⟨S4096x64, .f32⟩
  | .local _ .vmem, ⟨7, _⟩ => ⟨S4096x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S4096x64, .f32⟩
  | .local _ .vmem, ⟨13, _⟩ => ⟨S4096x64, .f32⟩
  | _, _ => ⟨S8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5_0 : Ref sig .tc := ⟨.hbm, 32, rfl⟩
abbrev main_v5_1 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x16384x16_S8x262144x1 : S8x16384x16.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  h_S_ : 0 < S_.numel
  bcast_S8x262144_S8x262144x64_0_1 : S8x262144.BroadcastsInDim S8x262144x64 (![0, 1] : Fin 2 → Fin S8x262144x64.rank)
  bcast_S_S8x262144x64 : S_.BroadcastsInDim S8x262144x64 (![] : Fin 0 → Fin S8x262144x64.rank)
  shapeCasts_S8x262144x64_S8x16384x16x64 : S8x262144x64.ShapeCasts S8x16384x16x64
  reducesTo_S8x16384x16x64_S8x16384x64_d2 : S8x16384x16x64.ReducesTo [2] S8x16384x64
  shapeCasts_S8x16384x64_S131072x64 : S8x16384x64.ShapeCasts S131072x64
  inb_S2x64_S2x64_0_0 : ∀ a, (![0, 0] : Fin 2 → Nat) a + S2x64.size a ≤ S2x64.size a
  h_S2x64 : 0 < S2x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S4096x64_S64 : S4096x64.Reduces [0] S64
  shapeCasts_S64_S1x64 : S64.ShapeCasts S1x64
  inb_S2x64_S1x64_0_0 : ∀ a, (![0, 0] : Fin 2 → Nat) a + S1x64.size a ≤ S2x64.size a
  h_S1x64 : 0 < S1x64.numel
  shapeCasts_S1x64_S1x64 : S1x64.ShapeCasts S1x64
  inb_S2x64_S1x64_1_0 : ∀ a, (![1, 0] : Fin 2 → Nat) a + S1x64.size a ≤ S2x64.size a
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64_S1x64_1_0 : S2x64.Slices ![1, 0] S1x64
  inb_S1x64_S1x64_0_0 : ∀ a, (![0, 0] : Fin 2 → Nat) a + S1x64.size a ≤ S1x64.size a
  broadcasts_S1x64_S4096x64 : S1x64.Broadcasts S4096x64
  shapeCasts_S131072x64_S8x16384x64 : S131072x64.ShapeCasts S8x16384x64
  gather_S8x16384x64_S8x262144x1_S8x262144x64_2_1_0_0_1_2_1164_wf : GatherDims.WF S8x16384x64 S8x262144x1 S8x262144x64 [2] [1] [0] [1] [0] 2 ![1, 1, 64]
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S131072x64.size a
  hwx0_2 : ∀ i : grid0.Coords, EltTy.bits .f32 = 32 ∨ (Rect.block (s := S131072x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S131072x64.size a
  hwx1_0 : ∀ i : grid1.Coords, EltTy.bits .f32 = 32 ∨ (Rect.block (s := S131072x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S131072x64.size a
  hwx1_5 : ∀ i : grid1.Coords, EltTy.bits .f32 = 32 ∨ (Rect.block (s := S131072x64) S4096x64.size (cc1_transform_5 i) (hinb1_5 i)).WholeWords (EltTy.packing .f32)

variable [Facts₀]

def gather_S8x16384x64_S8x262144x1_S8x262144x64_2_1_0_0_1_2_1164 : GatherDims S8x16384x64 S8x262144x1 S8x262144x64 where
  offsetDims := [2]
  collapsedSliceDims := [1]
  operandBatchingDims := [0]
  startIndicesBatchingDims := [0]
  startIndexMap := [1]
  indexVectorDim := 2
  sliceSizes := ![1, 1, 64]
  wf := gather_S8x16384x64_S8x262144x1_S8x262144x64_2_1_0_0_1_2_1164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v4) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S4096x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S2x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5_0) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S4096x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x16384x64 : Shape := ⟨3, ![8, 16384, 64]⟩
abbrev S8x16384x16 : Shape := ⟨3, ![8, 16384, 16]⟩
abbrev S64x64 : Shape := ⟨2, ![64, 64]⟩
abbrev S64 : Shape := ⟨1, ![64]⟩
abbrev S8x262144x1 : Shape := ⟨3, ![8, 262144, 1]⟩
abbrev S_ : Shape := ⟨0, ![]⟩
abbrev S1 : Shape := ⟨1, ![1]⟩
abbrev S1x1x1 : Shape := ⟨3, ![1, 1, 1]⟩
abbrev S8x262144 : Shape := ⟨2, ![8, 262144]⟩
abbrev S8x262144x64 : Shape := ⟨3, ![8, 262144, 64]⟩
abbrev S8x16384x16x64 : Shape := ⟨4, ![8, 16384, 16, 64]⟩
abbrev S131072x64 : Shape := ⟨2, ![131072, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S8x16384x64, .f32⟩
  | .hbm, ⟨1, _⟩ => ⟨S8x16384x16, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S8x262144x1, .i32⟩
  | .hbm, ⟨6, _⟩ => ⟨S_, .i32⟩
  | .hbm, ⟨7, _⟩ => ⟨S8x262144x1, .i32⟩
  | .hbm, ⟨8, _⟩ => ⟨S8x262144x1, .i1⟩
  | .hbm, ⟨9, _⟩ => ⟨S_, .i32⟩
  | .hbm, ⟨10, _⟩ => ⟨S8x262144x1, .i32⟩
  | .hbm, ⟨11, _⟩ => ⟨S8x262144x1, .i32⟩
  | .hbm, ⟨12, _⟩ => ⟨S8x262144x1, .i32⟩
  | .hbm, ⟨13, _⟩ => ⟨S1, .i32⟩
  | .hbm, ⟨14, _⟩ => ⟨S_, .i32⟩
  | .hbm, ⟨15, _⟩ => ⟨S8x262144x1, .i32⟩
  | .hbm, ⟨16, _⟩ => ⟨S8x262144x1, .i1⟩
  | .hbm, ⟨17, _⟩ => ⟨S1x1x1, .i32⟩
  | .hbm, ⟨18, _⟩ => ⟨S8x262144x1, .i32⟩
  | .hbm, ⟨19, _⟩ => ⟨S8x262144x1, .i1⟩
  | .hbm, ⟨20, _⟩ => ⟨S8x262144x1, .i1⟩
  | .hbm, ⟨21, _⟩ => ⟨S_, .i1⟩
  | .hbm, ⟨22, _⟩ => ⟨S8x262144, .i1⟩
  | .hbm, ⟨23, _⟩ => ⟨S8x262144x64, .f32⟩
  | .hbm, ⟨24, _⟩ => ⟨S8x262144x64, .i1⟩
  | .hbm, ⟨25, _⟩ => ⟨S_, .f32⟩
  | .hbm, ⟨26, _⟩ => ⟨S8x262144x64, .f32⟩
  | .hbm, ⟨27, _⟩ => ⟨S8x262144x64, .f32⟩
  | .hbm, ⟨28, _⟩ => ⟨S8x16384x16x64, .f32⟩
  | .hbm, ⟨29, _⟩ => ⟨S_, .f32⟩
  | .hbm, ⟨30, _⟩ => ⟨S8x16384x64, .f32⟩
  | .hbm, ⟨31, _⟩ => ⟨S_, .f32⟩
  | .hbm, ⟨32, _⟩ => ⟨S8x16384x64, .f32⟩
  | .hbm, ⟨33, _⟩ => ⟨S8x16384x64, .f32⟩
  | .hbm, ⟨34, _⟩ => ⟨S131072x64, .f32⟩
  | .hbm, ⟨35, _⟩ => ⟨S131072x64, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S131072x64, .f32⟩
  | .hbm, ⟨43, _⟩ => ⟨S131072x64, .f32⟩
  | .hbm, ⟨44, _⟩ => ⟨S131072x64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S131072x64, .f32⟩
  | .hbm, ⟨52, _⟩ => ⟨S131072x64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S131072x64, .f32⟩
  | .hbm, ⟨59, _⟩ => ⟨S131072x64, .f32⟩
  | .hbm, ⟨60, _⟩ => ⟨S1x64, .f32⟩
  | .hbm, ⟨61, _⟩ => ⟨S131072x64, .f32⟩
  | .hbm, ⟨62, _⟩ => ⟨S131072x64, .f32⟩
  | .hbm, ⟨63, _⟩ => ⟨S1x64, .f32⟩
  | .hbm, ⟨64, _⟩ => ⟨S131072x64, .f32⟩
  | .hbm, ⟨65, _⟩ => ⟨S131072x64, .f32⟩
  | .hbm, ⟨66, _⟩ => ⟨S8x16384x64, .f32⟩
  | _, _ => ⟨S8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_call1_cst : Ref sig .tc := ⟨.hbm, 31, rfl⟩
abbrev main_call1_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_cst_3 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩

abbrev nD : Nat := 1
abbrev τ : Topo := Topo.v7x

variable {F : FTy → Type} [FloatOps F]

class Facts₀ : Prop where
  shapeCasts_S8x16384x16_S8x262144x1 : S8x16384x16.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  h_S_ : 0 < S_.numel
  bcast_S8x262144_S8x262144x64_0_1 : S8x262144.BroadcastsInDim S8x262144x64 (![0, 1] : Fin 2 → Fin S8x262144x64.rank)
  bcast_S_S8x262144x64 : S_.BroadcastsInDim S8x262144x64 (![] : Fin 0 → Fin S8x262144x64.rank)
  shapeCasts_S8x262144x64_S8x16384x16x64 : S8x262144x64.ShapeCasts S8x16384x16x64
  reducesTo_S8x16384x16x64_S8x16384x64_d2 : S8x16384x16x64.ReducesTo [2] S8x16384x64
  bcast_S_S8x16384x64 : S_.BroadcastsInDim S8x16384x64 (![] : Fin 0 → Fin S8x16384x64.rank)
  shapeCasts_S8x16384x64_S131072x64 : S8x16384x64.ShapeCasts S131072x64
  reducesTo_S131072x64_S64_d0 : S131072x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  shapeCasts_S131072x64_S8x16384x64 : S131072x64.ShapeCasts S8x16384x64
  gather_S8x16384x64_S8x262144x1_S8x262144x64_2_1_0_0_1_2_1164_wf : GatherDims.WF S8x16384x64 S8x262144x1 S8x262144x64 [2] [1] [0] [1] [0] 2 ![1, 1, 64]
  dot_S131072x64_S64x64_S131072x64_1_0_0_1_n_n_wf : DotDims.WF S131072x64 S64x64 S131072x64 [1] [0] [0] [1] [] []

variable [Facts₀]

def gather_S8x16384x64_S8x262144x1_S8x262144x64_2_1_0_0_1_2_1164 : GatherDims S8x16384x64 S8x262144x1 S8x262144x64 where
  offsetDims := [2]
  collapsedSliceDims := [1]
  operandBatchingDims := [0]
  startIndicesBatchingDims := [0]
  startIndexMap := [1]
  indexVectorDim := 2
  sliceSizes := ![1, 1, 64]
  wf := gather_S8x16384x64_S8x262144x1_S8x262144x64_2_1_0_0_1_2_1164_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf

class Facts : Prop extends Facts₀ where

variable [Facts]
-- ==== Proof.KernelRun.lean ====
/-
  The kernel program's run, with its result named.

  From any memory with zero counters every weakly fair execution of the program terminates without a fault, its
  result buffer holds what the last host stretch leaves there (`W7 … main_v24`, the fold of the program's stretches
  and kernels from the launch memory), and its five arguments hold what they held at launch. The segments, the thread
  states and the launch are the frame's; only the final reading differs: it reads the result buffer too.
-/
import proofs.«112230_j85169201479757_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.RunValue

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibColumnSum.lean ====
/-
  The column sums of a matrix, read at an index at the exact extended reals: a general lemma.

  A sum-reduction of an `[a, b]` array over its row axis (axis 0) leaves a vector `[b]`; its entry `q` is the sum over
  the rows `k` of the array at `(k, q)`.
-/
import Idealize.ShloMosaic.PureOps.Ideal
import Idealize.ShloMosaic.PureOps.Ideal.Laws
import Idealize.ShloMosaic.Lib.ValueIdx

noncomputable section

namespace Cert.LibColumnSum

open Idealize.ShloMosaic Idealize.ShloMosaic.ValueIdx

variable {a b : ℕ}

/-- The index of the matrix over entry `q` of the reduced vector, with row coordinate `k` put back, is `(k, q)`. -/
theorem lift_eq (h : (⟨2, ![a, b]⟩ : Shape).Reduces [0] (⟨1, ![b]⟩ : Shape)) (q : Fin b) (k : Fin a) :
    h.lift (ix1 q) k = ix2 k q := by
  funext c
  apply Fin.ext
  refine (h.lift_val (ix1 q) k c).trans ?_
  unfold Shape.Reduces.liftVal
  match c with
  | ⟨0, _⟩ => rfl
  | ⟨1, _⟩ => rfl

/-- Entry `q` of the column sums is the sum over the rows of column `q`. -/
theorem colSum_apply {φ : FTy} (src : FVec Ideal (⟨2, ![a, b]⟩ : Shape) φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] (⟨1, ![b]⟩ : Shape) src acc h hφ hacc (ix1 q) = ∑ k : Fin a, src (ix2 k q) := by
  refine (Ideal.multiReduction_add_single src acc h hφ hacc (ix1 q)).trans ?_
  exact Finset.sum_congr rfl fun k _ => congrArg src (lift_eq h q k)

end Cert.LibColumnSum

end
-- ==== Proof.VarianceLaw.lean ====
/-
  The one algebraic law of this certificate, over the reals: for finitely many reals y_i, n of them with n ≠ 0,
  the mean of the squared deviations from the mean is the mean of the squares minus the square of the mean.
-/
import Mathlib

namespace Cert.BatchNorm

open Finset

/-- Mean of squared deviations = mean of squares − squared mean, for a family indexed by a finite type whose
    cardinality is the divisor. -/
theorem variance_real {ι : Type} [Fintype ι] (y : ι → ℝ) (n : ℝ) (hn : n ≠ 0) (hcard : (Fintype.card ι : ℝ) = n) :
    (∑ i, (y i - (∑ j, y j) / n) * (y i - (∑ j, y j) / n)) / n
      = (∑ i, y i * y i) / n - ((∑ j, y j) / n) * ((∑ j, y j) / n) := by
  have h : ∀ μ : ℝ, ∑ i, (y i - μ) * (y i - μ) = (∑ i, y i * y i) - 2 * μ * (∑ i, y i) + n * (μ * μ) := by
    intro μ
    have : ∀ i, (y i - μ) * (y i - μ) = y i * y i - 2 * μ * y i + μ * μ := fun i => by ring
    simp only [this, sum_add_distrib, sum_sub_distrib, ← mul_sum, sum_const, card_univ, nsmul_eq_mul, hcard]
    ring
  rw [h]
  field_simp
  ring

end Cert.BatchNorm
-- ==== Proof.LibBinCount.lean ====
/-
  Counting with 0/1 words.

  A comparison of two 32-bit integers yields one bit; widened to 32 bits and read as a signed integer it is
  0 or 1.  This file relates the two ways a histogram bin is counted:

    * summing the widened bits as 32-bit integers (wrapping addition) and converting the total to a real, and
    * converting each widened bit to a real and summing the reals.

  As long as there are fewer than 2^31 summands the integer total cannot wrap, so both give the number of
  set bits.  Also here: a finite sum of real numbers embedded in the extended reals is the embedded sum, and a
  sum over `Fin (a * b)` split into `a` consecutive runs of length `b`.
-/
import Idealize.ShloMosaic.PureOps.Ideal.Laws
import Idealize.ShloMosaic.PureOps.Reduce

noncomputable section

namespace Cert.BinCount

open Idealize.ShloMosaic

/-- "The 32-bit integer `v` equals `c`" as the extended real 0 or 1: the comparison bit, widened to 32 bits,
    read as a signed integer, as a real. -/
def ind (v c : BitVec 32) : EReal := ((((IntOp.cmpi .eq v c).setWidth 32).toInt : ℝ) : EReal)

/-- A finite sum of reals, embedded in the extended reals term by term, is the embedded sum. -/
theorem coe_sum {ι : Type} (s : Finset ι) (f : ι → ℝ) :
    (∑ p ∈ s, ((f p : ℝ) : EReal)) = (((∑ p ∈ s, f p) : ℝ) : EReal) := by
  classical
  induction s using Finset.induction_on with
  | empty => simp
  | insert a s ha ih => rw [Finset.sum_insert ha, Finset.sum_insert ha, ih, EReal.coe_add]

/-- One bit widened to 32 bits, read signed, is the bit's value. -/
theorem toInt_setWidth_bit (b : BitVec 1) : (b.setWidth 32).toInt = (b.toNat : ℤ) := by
  rcases BitVec.eq_zero_or_eq_one b with h | h <;> subst h <;> decide

/-- One bit widened to 32 bits is the 32-bit word of the bit's value. -/
theorem setWidth_bit_eq_ofNat (b : BitVec 1) : b.setWidth 32 = BitVec.ofNat 32 b.toNat := by
  rcases BitVec.eq_zero_or_eq_one b with h | h <;> subst h <;> decide

/-- The wrapping 32-bit sum of widened bits is the 32-bit word of the number of set bits. -/
theorem fold_addi_bits {ι : Type} [DecidableEq ι] (s : Finset ι) (e : ι → BitVec 1) :
    s.fold IntOp.addi 0#32 (fun p => (e p).setWidth 32) = BitVec.ofNat 32 (∑ p ∈ s, (e p).toNat) := by
  induction s using Finset.induction_on with
  | empty => simp
  | insert a s ha ih =>
    rw [Finset.fold_insert ha, ih, Finset.sum_insert ha, setWidth_bit_eq_ofNat]
    show BitVec.ofNat 32 _ + BitVec.ofNat 32 _ = _
    rw [← BitVec.ofNat_add]

/-- With fewer than 2^31 summands the integer total does not wrap: converted to a real it is the sum of the
    bits converted one by one. -/
theorem coe_toInt_fold_addi_bits {N : Nat} (hN : N < 2 ^ 31) (e : Fin N → BitVec 1) :
    (((((Finset.univ : Finset (Fin N)).fold IntOp.addi 0#32 (fun p => (e p).setWidth 32)).toInt : ℤ) : ℝ) : EReal)
      = ∑ p : Fin N, (((((e p).setWidth 32).toInt : ℤ) : ℝ) : EReal) := by
  rw [fold_addi_bits, coe_sum]
  have hle : (∑ p : Fin N, (e p).toNat) ≤ N := by
    calc (∑ p : Fin N, (e p).toNat) ≤ ∑ _p : Fin N, 1 :=
          Finset.sum_le_sum (fun p _ => by have := (e p).isLt; omega)
      _ = N := by simp
  have h1 : (BitVec.ofNat 32 (∑ p : Fin N, (e p).toNat)).toInt = ((∑ p : Fin N, (e p).toNat : ℕ) : ℤ) := by
    have hlt : (∑ p : Fin N, (e p).toNat) < 2 ^ 31 := lt_of_le_of_lt hle hN
    rw [BitVec.toInt_eq_toNat_of_lt (by rw [BitVec.toNat_ofNat, Nat.mod_eq_of_lt (by omega)]; omega),
      BitVec.toNat_ofNat, Nat.mod_eq_of_lt (by omega)]
  rw [h1]
  congr 1
  push_cast
  exact Finset.sum_congr rfl fun p _ => by rw [toInt_setWidth_bit]; push_cast; rfl

/-- A sum over `Fin (a * b)` as `a` consecutive runs of length `b`. -/
theorem sum_runs {M : Type} [AddCommMonoid M] (a b : Nat) (f : Fin (a * b) → M) :
    ∑ p : Fin (a * b), f p
      = ∑ u ∈ Finset.range a, ∑ q : Fin b,
          (if h : u * b + q.val < a * b then f ⟨u * b + q.val, h⟩ else 0) := by
  rw [← Fin.sum_univ_eq_sum_range (fun u => ∑ q : Fin b, (if h : u * b + q.val < a * b then f ⟨u * b + q.val, h⟩ else 0)) a]
  rw [← Fintype.sum_prod_type']
  refine (Fintype.sum_equiv finProdFinEquiv.symm _ _ fun p => ?_)
  have hb : 0 < b := by
    rcases Nat.eq_zero_or_pos b with h | h
    · subst h; exact absurd p.isLt (by simp)
    · exact h
  have e : (finProdFinEquiv.symm p).1.val * b + (finProdFinEquiv.symm p).2.val = p.val := by
    simp [finProdFinEquiv, Fin.divNat, Fin.modNat]
    rw [Nat.mul_comm]; exact Nat.div_add_mod p.val b
  rw [dif_pos (by rw [e]; exact p.isLt)]
  exact congrArg f (Fin.ext e.symm)

end Cert.BinCount

end
-- ==== Proof.Spec.lean ====
/-
  What both programs compute, as functions at the exact extended reals, and the one law that joins them.

  From an array `M` of 131072 rows and 64 channels (each row the channelwise maximum of sixteen gathered rows of the
  input) and a 64 × 64 weight `W`:
    * `lin M W p q`  — row `p` of `max(M, 0)` against column `q` of `W`: the linear layer on the rectified features;
    * for a matrix `Y` of 131072 rows: its column sums, its column sums of squares, the column mean (the sum divided by
      the row count 2^17), and the column variance written in the two ways the two programs write it — the mean of the
      squares minus the square of the mean, and the mean of the squared deviations from the mean;
    * `normalize var γ β p q = (Y p q − mean q) · rsqrt(var q + ε) · γ q + β q`.
  The two variances agree whenever every entry of `Y` is a real number (`var_eq`): this is the identity
  Σ(y − μ)² = Σy² − nμ² with μ = Σy / n, which needs the divisor to BE the number of rows (2^17 = 131072, `rowsW_eq`) and
  needs finiteness (at an infinite entry both sides are conventions, and different ones). `lin` is real when no entry of
  `M` is +∞ and `W` is real (`lin_real`): the rectifier sends −∞ to 0.
-/
import Idealize.ShloMosaic.PureOps.Ideal
import Idealize.ShloMosaic.PureOps.Ideal.Laws
import Idealize.ShloMosaic.Lib.ValueIdx
import proofs.«112230_j85169201479757_1_alg».proof.Proof.VarianceLaw
import proofs.«112230_j85169201479757_1_alg».proof.Proof.LibBinCount

noncomputable section

namespace Cert.BatchNorm

open Idealize.ShloMosaic Idealize.ShloMosaic.ValueIdx

/-- The three float words both programs carry: zero, the row count 2^17, and the variance offset. -/
abbrev zeroW : EReal := Ideal.ofBits .f32 0x00000000#32
abbrev rowsW : EReal := Ideal.ofBits .f32 0x48000000#32
abbrev epsW : EReal := Ideal.ofBits .f32 0x3727C5AC#32

theorem zeroW_eq : zeroW = 0 := Ideal.ofBits_zero_f32

/-- The word `0x48000000` is 2^17, the number of rows. -/
theorem rowsW_eq : rowsW = ((131072 : ℝ) : EReal) := by
  simp [Ideal.ofBits, Ideal.ieee, -EReal.coe_mul]; norm_num

/-- The linear layer on the rectified features: row `p` of `max(M, 0)` against column `q` of `W`. -/
def lin (M : (⟨2, ![131072, 64]⟩ : Shape).Idx → EReal) (W : (⟨2, ![64, 64]⟩ : Shape).Idx → EReal)
    (p : Fin 131072) (q : Fin 64) : EReal :=
  ∑ e : Fin 64, max (M (ix2 p e)) zeroW * W (ix2 e q)

section Columns

variable (Y : Fin 131072 → Fin 64 → EReal)

/-- Column sums, from the zero word. -/
def colSum (q : Fin 64) : EReal := zeroW + ∑ p, Y p q
/-- Column sums of squares, from the zero word. -/
def colSumSq (q : Fin 64) : EReal := zeroW + ∑ p, Y p q * Y p q
/-- The column mean: the sum divided by the row-count word. -/
def mean (q : Fin 64) : EReal := Ideal.div (colSum Y q) rowsW
/-- The variance as the mean of the squares minus the square of the mean. -/
def varOfSquares (q : Fin 64) : EReal := Ideal.div (colSumSq Y q) rowsW - mean Y q * mean Y q
/-- The variance as the mean of the squared deviations from the mean. -/
def varOfDeviations (q : Fin 64) : EReal :=
  Ideal.div (zeroW + ∑ p, (Y p q - mean Y q) * (Y p q - mean Y q)) rowsW
/-- Centre, scale by the reciprocal standard deviation, then the affine map. -/
def normalize (var : Fin 64 → EReal) (γ β : (⟨1, ![64]⟩ : Shape).Idx → EReal) (p : Fin 131072) (q : Fin 64) : EReal :=
  (Y p q - mean Y q) * Ideal.rsqrt (var q + epsW) * γ (ix1 q) + β (ix1 q)

/-- On real entries the two variances are one number. -/
theorem var_eq (hY : ∀ p q, ∃ r : ℝ, Y p q = (r : EReal)) (q : Fin 64) :
    varOfSquares Y q = varOfDeviations Y q := by
  choose y hy using fun p => hY p q
  have hn : (131072 : ℝ) ≠ 0 := by norm_num
  have hcard : (Fintype.card (Fin 131072) : ℝ) = 131072 := by simp
  have hmean : mean Y q = (((∑ p, y p) / 131072 : ℝ) : EReal) := by
    unfold mean colSum
    rw [zeroW_eq, zero_add, rowsW_eq, Ideal.div_coe hn]
    simp only [hy]
    rw [Cert.BinCount.coe_sum, ← EReal.coe_mul, mul_one_div]
  unfold varOfSquares varOfDeviations colSumSq
  rw [hmean, zeroW_eq, zero_add, zero_add, rowsW_eq, Ideal.div_coe hn, Ideal.div_coe hn]
  simp only [hy, ← EReal.coe_mul, ← EReal.coe_sub]
  rw [Cert.BinCount.coe_sum, Cert.BinCount.coe_sum, ← EReal.coe_mul, ← EReal.coe_mul, ← EReal.coe_sub, mul_one_div,
    mul_one_div]
  exact congrArg _ (variance_real y 131072 hn hcard).symm

end Columns

/-- The rectifier of anything but +∞ is a real number: −∞ goes to 0. -/
theorem relu_real (x : EReal) (hx : x ≠ ⊤) : ∃ r : ℝ, max x zeroW = (r : EReal) := by
  rw [zeroW_eq]
  induction x using EReal.rec with
  | bot => exact ⟨0, by simp⟩
  | top => exact absurd rfl hx
  | coe r => exact ⟨max r 0, by rw [← EReal.coe_zero]; exact (EReal.coe_strictMono.monotone.map_max).symm⟩

/-- The linear layer is real when no feature is +∞ and the weight is real. -/
theorem lin_real (M : (⟨2, ![131072, 64]⟩ : Shape).Idx → EReal) (W : (⟨2, ![64, 64]⟩ : Shape).Idx → EReal)
    (hM : ∀ i, M i ≠ ⊤) (hW : ∀ i, ∃ r : ℝ, W i = (r : EReal)) (p : Fin 131072) (q : Fin 64) :
    ∃ r : ℝ, lin M W p q = (r : EReal) := by
  choose w hw using hW
  choose a ha using fun e : Fin 64 => relu_real (M (ix2 p e)) (hM _)
  refine ⟨∑ e, a e * w (ix2 e q), ?_⟩
  unfold lin
  simp only [ha, hw, ← EReal.coe_mul]
  exact Cert.BinCount.coe_sum _ _

end Cert.BatchNorm

end
-- ==== Proof.StatsBody.lean ====
/-
  The first kernel's body, read as values.

  At a grid point the body holds a block `x0` of 4096 rows of the features and the weight `x1`. It stores the block
  product `y = max(x0, 0) · x1` (4096 × 64) and adds to a 2 × 64 accumulator the column sums of `y` (row 0) and of
  `y²` (row 1). At the first point the accumulator is first cleared, so it leaves `0 + Σ`; at every later point it
  leaves `previous + Σ`.

  Here: the block product at an index (`pay2_apply`: row `r` of the rectified block against column `q` of the weight),
  the two accumulator updates at an index (`pay3_apply`, `pay4_apply`: the old entry plus a sum over the 4096 rows), and
  what each of the two control cases leaves in the two output buffers (`out_A_2`, `out_B_2`: the block product;
  `out_A_3_row0/1`, `out_B_3_row0/1`: the accumulator's two rows, entry by entry).
-/
import proofs.«112230_j85169201479757_1_alg».proof.Proof.Gen.KernelIdeal.Frame
import proofs.«112230_j85169201479757_1_alg».proof.Proof.LibMatmulNN
import proofs.«112230_j85169201479757_1_alg».proof.Proof.LibColumnSum
import proofs.«112230_j85169201479757_1_alg».proof.Proof.Spec
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.Body

open Cert.KernelIdeal Cert.KernelIdeal.Gen Cert.BatchNorm

theorem hz : (![0, 0] : Fin 2 → Nat) = fun _ => 0 := funext fun a => by fin_cases a <;> rfl

/-! ## The payloads at an index -/

/-- The block product at `(r, q)`: row `r` of the rectified block against column `q` of the weight. -/
theorem pay2_apply (x0 : Vec Ideal S4096x64 .f32) (x1 : Vec Ideal S64x64 .f32) (r : Fin 4096) (q : Fin 64) :
    k0_pay2 (F := Ideal) x0 x1 (ix2 r q) = ∑ e : Fin 64, max (x0 (ix2 r e)) zeroW * x1 (ix2 e q) := by
  unfold k0_pay2
  refine (Cert.LibMatmulNN.matmul_zero_apply (M := 4096) (N := 64) (K := 64)
    dot_S4096x64_S64x64_S4096x64_1_0_0_1_n_n_wf none _ _ r q).trans ?_
  refine Finset.sum_congr rfl fun e _ => ?_
  rw [shapeCast_self]
  rfl

/-- The update of the accumulator's first row at column `q`: the old entry plus the column sum of the block product. -/
theorem pay3_apply (x0 : Vec Ideal S4096x64 .f32) (x1 : Vec Ideal S64x64 .f32) (v : Vec Ideal S1x64 .f32) (q : Fin 64) :
    k0_pay3 (F := Ideal) x0 x1 v (ix2 (0 : Fin 1) q)
      = v (ix2 (0 : Fin 1) q) + ∑ r : Fin 4096, k0_pay2 (F := Ideal) x0 x1 (ix2 r q) := by
  unfold k0_pay3
  refine (addf_apply _ _ _).trans ?_
  refine congrArg₂ (· + ·) ?_ ?_
  · exact congrFun (shapeCast_self v _) _
  · refine (shapeCast_a_1a_apply _ _ 0 q).trans ?_
    exact Cert.LibColumnSum.colSum_apply (k0_pay2 (F := Ideal) x0 x1) 0x00000000#32 reduces_S4096x64_S64 (.inl rfl) rfl q

/-- The update of the accumulator's second row at column `q`: the old entry plus the column sum of the squares. -/
theorem pay4_apply (x0 : Vec Ideal S4096x64 .f32) (x1 : Vec Ideal S64x64 .f32) (v : Vec Ideal S1x64 .f32) (q : Fin 64) :
    k0_pay4 (F := Ideal) x0 x1 v (ix2 (0 : Fin 1) q)
      = v (ix2 (0 : Fin 1) q)
        + ∑ r : Fin 4096, k0_pay2 (F := Ideal) x0 x1 (ix2 r q) * k0_pay2 (F := Ideal) x0 x1 (ix2 r q) := by
  unfold k0_pay4
  refine (addf_apply _ _ _).trans ?_
  refine congrArg₂ (· + ·) ?_ ?_
  · exact congrFun (shapeCast_self v _) _
  · refine (shapeCast_a_1a_apply _ _ 0 q).trans ?_
    exact Cert.LibColumnSum.colSum_apply (mulf (k0_pay2 (F := Ideal) x0 x1) (k0_pay2 (F := Ideal) x0 x1)) 0x00000000#32
      reduces_S4096x64_S64 (.inl rfl) rfl q

/-! ## The two rows of the accumulator as rectangles -/

/-- Row 0 and row 1 of the 2 × 64 accumulator. -/
abbrev R0 : Rect S2x64 := Rect.unit (s := S2x64) ![0, 0] S1x64.size inb_S2x64_S1x64_0_0
abbrev R1 : Rect S2x64 := Rect.unit (s := S2x64) ![1, 0] S1x64.size inb_S2x64_S1x64_1_0

theorem R0_idx (z : Fin 1) (q : Fin 64) : R0.idx (ix2 z q) = (ix2 (0 : Fin 2) q : S2x64.Idx) := by
  funext a
  apply Fin.ext
  match a with
  | ⟨0, _⟩ => show 0 + 1 * z.val = 0; omega
  | ⟨1, _⟩ => show 0 + 1 * q.val = q.val; omega

theorem R1_idx (z : Fin 1) (q : Fin 64) : R1.idx (ix2 z q) = (ix2 (1 : Fin 2) q : S2x64.Idx) := by
  funext a
  apply Fin.ext
  match a with
  | ⟨0, _⟩ => show 1 + 1 * z.val = 1; omega
  | ⟨1, _⟩ => show 0 + 1 * q.val = q.val; omega

theorem row0_not_mem_R1 (q : Fin 64) : (ix2 (0 : Fin 2) q : S2x64.Idx) ∉ R1.set := by
  rw [Rect.mem_set_unit]
  intro h
  have h1 : (1 : ℕ) ≤ 0 := (h 0).1
  omega

theorem row1_not_mem_R0 (q : Fin 64) : (ix2 (1 : Fin 2) q : S2x64.Idx) ∉ R0.set := by
  rw [Rect.mem_set_unit]
  intro h
  have h1 : (1 : ℕ) < 0 + 1 := (h 0).2
  omega

section Canon

variable {F : FTy → Type} [FloatOps F]

/-- Entry `(0, q)` is not touched by a store to row 1. -/
theorem canon_row0_skip (P : R1.shape.Idx → Elt F .f32) (L : List (View.Piece (Elt F) S2x64 .f32)) (q : Fin 64) :
    View.canon (⟨R1, P⟩ :: L) (ix2 (0 : Fin 2) q) = View.canon L (ix2 (0 : Fin 2) q) :=
  View.canon_cons_of_not_mem ⟨R1, P⟩ L (row0_not_mem_R1 q)

/-- Entry `(1, q)` is not touched by a store to row 0. -/
theorem canon_row1_skip (P : R0.shape.Idx → Elt F .f32) (L : List (View.Piece (Elt F) S2x64 .f32)) (q : Fin 64) :
    View.canon (⟨R0, P⟩ :: L) (ix2 (1 : Fin 2) q) = View.canon L (ix2 (1 : Fin 2) q) :=
  View.canon_cons_of_not_mem ⟨R0, P⟩ L (row1_not_mem_R0 q)

/-- Under a last store to row 0, entry `(0, q)` is the stored row at `q`. -/
theorem canon_row0 (P : R0.shape.Idx → Elt F .f32) (L : List (View.Piece (Elt F) S2x64 .f32)) (q : Fin 64) :
    View.canon (⟨R0, P⟩ :: L) (ix2 (0 : Fin 2) q) = P (ix2 (0 : Fin 1) q) := by
  have h := View.canon_cons_emb (Val := Elt F) R0 P L (ix2 (0 : Fin 1) q)
  rw [show R0.emb (ix2 (0 : Fin 1) q) = (ix2 (0 : Fin 2) q : S2x64.Idx) from R0_idx 0 q] at h
  exact h

/-- Under a last store to row 1, entry `(1, q)` is the stored row at `q`. -/
theorem canon_row1 (P : R1.shape.Idx → Elt F .f32) (L : List (View.Piece (Elt F) S2x64 .f32)) (q : Fin 64) :
    View.canon (⟨R1, P⟩ :: L) (ix2 (1 : Fin 2) q) = P (ix2 (0 : Fin 1) q) := by
  have h := View.canon_cons_emb (Val := Elt F) R1 P L (ix2 (0 : Fin 1) q)
  rw [show R1.emb (ix2 (0 : Fin 1) q) = (ix2 (1 : Fin 2) q : S2x64.Idx) from R1_idx 0 q] at h
  exact h

end Canon

/-- The cleared accumulator reads the zero word everywhere. -/
theorem pay1_apply (y : S2x64.Idx) : k0_pay1 (F := Ideal) y = zeroW := rfl

/-! ## What each case leaves in the two output buffers -/

section Pieces

variable {F : FTy → Type} [FloatOps F]
variable (c : Dev nD) (i : grid0.Coords)
  (a1 : Memref sig .tc .vmem S4096x64 .f32) (h1 : a1.IsWhole) (a2 : Memref sig .tc .vmem S64x64 .f32) (h2 : a2.IsWhole)
  (a3 : Memref sig .tc .vmem S4096x64 .f32) (h3 : a3.IsWhole) (a4 : Memref sig .tc .vmem S2x64 .f32) (h4 : a4.IsWhole)

/-- First point: the block product. -/
theorem out_A_2 (hc : cond0_0 i) (x0 : Vec F S4096x64 .f32) (x1 : Vec F S64x64 .f32) :
    out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S4096x64) hz,
    View.ld_unit_zero (S := S64x64) hz]

/-- Later points: the block product. -/
theorem out_B_2 (hc : ¬cond0_0 i) (x0 : Vec F S4096x64 .f32) (x1 : Vec F S64x64 .f32) (xo : Vec F S2x64 .f32) :
    out0_B_2 c i a1 h1 a2 h2 a3 h3 a4 h4 hc x0 x1 xo = k0_pay2 x0 x1 := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz]
  simp only [View.readAt_eq_ld, h1.read_unread, h2.read_unread, View.ld_unit_zero (S := S4096x64) hz,
    View.ld_unit_zero (S := S64x64) hz]

end Pieces

section PiecesIdeal

variable (c : Dev nD) (i : grid0.Coords)
  (a1 : Memref sig .tc .vmem S4096x64 .f32) (h1 : a1.IsWhole) (a2 : Memref sig .tc .vmem S64x64 .f32) (h2 : a2.IsWhole)
  (a3 : Memref sig .tc .vmem S4096x64 .f32) (h3 : a3.IsWhole) (a4 : Memref sig .tc .vmem S2x64 .f32) (h4 : a4.IsWhole)

/-- Later points, accumulator row 0: the previous entry plus the block product's column sum. -/
theorem out_B_3_row0 (hc : ¬cond0_0 i) (x0 : Vec Ideal S4096x64 .f32) (x1 : Vec Ideal S64x64 .f32)
    (xo : Vec Ideal S2x64 .f32) (q : Fin 64) :
    out0_B_3 c i a1 h1 a2 h2 a3 h3 a4 h4 hc x0 x1 xo (ix2 (0 : Fin 2) q)
      = xo (ix2 (0 : Fin 2) q) + ∑ r : Fin 4096, k0_pay2 (F := Ideal) x0 x1 (ix2 r q) := by
  unfold out0_B_3
  rw [View.read_writes_eq_canon _ _ _ (cover0_B_3 c i a1 h1 a2 h2 a3 h3 a4 h4 hc x0 x1 xo)]
  unfold kernelRun0_B
  dsimp only
  sl_unfold_words
  simp only [View.readAt_eq_ld, h1.read_unread, h2.read_unread, h4.read_unread, View.ld_unit_zero (S := S4096x64) hz,
    View.ld_unit_zero (S := S64x64) hz]
  refine (canon_row0_skip _ _ q).trans ?_
  refine (canon_row0 _ _ q).trans ?_
  refine (pay3_apply x0 x1 _ q).trans ?_
  exact congrArg (· + _) (congrArg xo (R0_idx 0 q))

/-- Later points, accumulator row 1: the previous entry plus the column sum of the squares. -/
theorem out_B_3_row1 (hc : ¬cond0_0 i) (x0 : Vec Ideal S4096x64 .f32) (x1 : Vec Ideal S64x64 .f32)
    (xo : Vec Ideal S2x64 .f32) (q : Fin 64) :
    out0_B_3 c i a1 h1 a2 h2 a3 h3 a4 h4 hc x0 x1 xo (ix2 (1 : Fin 2) q)
      = xo (ix2 (1 : Fin 2) q)
        + ∑ r : Fin 4096, k0_pay2 (F := Ideal) x0 x1 (ix2 r q) * k0_pay2 (F := Ideal) x0 x1 (ix2 r q) := by
  unfold out0_B_3
  rw [View.read_writes_eq_canon _ _ _ (cover0_B_3 c i a1 h1 a2 h2 a3 h3 a4 h4 hc x0 x1 xo)]
  unfold kernelRun0_B
  dsimp only
  sl_unfold_words
  simp only [View.readAt_eq_ld, h1.read_unread, h2.read_unread, h4.read_unread, View.ld_unit_zero (S := S4096x64) hz,
    View.ld_unit_zero (S := S64x64) hz]
  refine (canon_row1 _ _ q).trans ?_
  refine (pay4_apply x0 x1 _ q).trans ?_
  exact congrArg (· + _) (congrArg xo (R1_idx 0 q))

/-- First point, accumulator row 0: the cleared entry plus the block product's column sum. -/
theorem out_A_3_row0 (hc : cond0_0 i) (x0 : Vec Ideal S4096x64 .f32) (x1 : Vec Ideal S64x64 .f32) (q : Fin 64) :
    out0_A_3 c i a1 h1 a2 h2 a3 h3 a4 h4 hc x0 x1 (ix2 (0 : Fin 2) q)
      = zeroW + ∑ r : Fin 4096, k0_pay2 (F := Ideal) x0 x1 (ix2 r q) := by
  unfold out0_A_3
  rw [View.read_writes_eq_canon _ _ _ (cover0_A_3 c i a1 h1 a2 h2 a3 h3 a4 h4 hc x0 x1)]
  unfold kernelRun0_A
  dsimp only
  sl_unfold_words
  simp only [View.readAt_eq_ld, h1.read_unread, h2.read_unread, View.ld_unit_zero (S := S4096x64) hz,
    View.ld_unit_zero (S := S64x64) hz]
  refine (canon_row0_skip _ _ q).trans ?_
  refine (canon_row0 _ _ q).trans ?_
  refine (pay3_apply x0 x1 _ q).trans ?_
  refine congrArg (· + _) ?_
  refine (congrFun (View.readCov_eq_canon' _ _ _) _).trans ?_
  refine (congrFun (View.canon_unit_zero hz _ _) _).trans ?_
  exact pay1_apply _

/-- First point, accumulator row 1: the cleared entry plus the column sum of the squares. -/
theorem out_A_3_row1 (hc : cond0_0 i) (x0 : Vec Ideal S4096x64 .f32) (x1 : Vec Ideal S64x64 .f32) (q : Fin 64) :
    out0_A_3 c i a1 h1 a2 h2 a3 h3 a4 h4 hc x0 x1 (ix2 (1 : Fin 2) q)
      = zeroW + ∑ r : Fin 4096, k0_pay2 (F := Ideal) x0 x1 (ix2 r q) * k0_pay2 (F := Ideal) x0 x1 (ix2 r q) := by
  unfold out0_A_3
  rw [View.read_writes_eq_canon _ _ _ (cover0_A_3 c i a1 h1 a2 h2 a3 h3 a4 h4 hc x0 x1)]
  unfold kernelRun0_A
  dsimp only
  sl_unfold_words
  simp only [View.readAt_eq_ld, h1.read_unread, h2.read_unread, View.ld_unit_zero (S := S4096x64) hz,
    View.ld_unit_zero (S := S64x64) hz]
  refine (canon_row1 _ _ q).trans ?_
  refine (pay4_apply x0 x1 _ q).trans ?_
  refine congrArg (· + _) ?_
  refine (congrFun (View.readCov_eq_canon' _ _ _) _).trans ?_
  refine ((congrArg _ (R1_idx 0 q)).trans (canon_row1_skip _ _ q)).trans ?_
  refine (congrFun (View.canon_unit_zero hz _ _) _).trans ?_
  exact pay1_apply _

end PiecesIdeal

end Cert.KernelIdeal.Body

end
-- ==== Proof.StatsFold.lean ====
/-
  The first kernel's two outputs after each grid point.

  The grid has 32 points; point `t` holds rows 4096·t … 4096·t + 4095 of the features. After point `t` the first
  output's staging buffer holds that point's block product (`outs_fst`), and the accumulator holds, in row 0, the zero
  word plus the column sums of the block products of points 0 … t, and in row 1 the same of their squares
  (`outs_row0`, `outs_row1`): by induction on the point, the first point clearing and every later one adding.
-/
import proofs.«112230_j85169201479757_1_alg».proof.Proof.StatsBody

noncomputable section

open Idealize.ShloMosaic Idealize.ShloMosaic.TcCoe Idealize.SL.Sem Idealize.ShloMosaic.ValueIdx

namespace Cert.KernelIdeal.Fold

open Cert.KernelIdeal Cert.KernelIdeal.Gen Cert.BatchNorm Cert.KernelIdeal.Body

variable (V : (c : Dev nD) → (b : Ref sig .tc) → Buf (Elt Ideal) ((c : Thread nD τ).loc b))

/-- The block product of point `n` (zero past the grid, so that it is defined for every natural number). -/
def yblk (c : Dev nD) (n : ℕ) (r : Fin 4096) (q : Fin 64) : EReal :=
  if h : n < cfg0.N then k0_pay2 (F := Ideal) (iblk0 V c 0 ⟨n, h⟩) (iblk0 V c 1 ⟨n, h⟩) (ix2 r q) else 0

theorem yblk_of_lt (c : Dev nD) (n : ℕ) (h : n < cfg0.N) (r : Fin 4096) (q : Fin 64) :
    yblk V c n r q = k0_pay2 (F := Ideal) (iblk0 V c 0 ⟨n, h⟩) (iblk0 V c 1 ⟨n, h⟩) (ix2 r q) := dif_pos h

set_option maxHeartbeats 1000000 in
/-- After point `t` the first output's staging buffer holds the point's block product. -/
theorem outs_fst (c : Dev nD) (t : Fin cfg0.N) :
    (outsAt0 V c t.val t.isLt).1 = k0_pay2 (F := Ideal) (iblk0 V c 0 t) (iblk0 V c 1 t) := by
  by_cases h0 : t.val % 32 = 0
  · rw [outsAt0_A V c t h0]
    dsimp only
    exact out_A_2 (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t)
  · rw [outsAt0_B V c t h0]
    dsimp only
    exact out_B_2 (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).2

set_option maxHeartbeats 1000000 in
/-- After point `n` row 0 of the accumulator holds the zero word plus the column sums of the block products so far. -/
theorem outs_row0 (c : Dev nD) : ∀ (n : ℕ) (hn : n < cfg0.N) (q : Fin 64),
    (outsAt0 V c n hn).2 (ix2 (0 : Fin 2) q) = zeroW + ∑ u ∈ Finset.range (n + 1), ∑ r : Fin 4096, yblk V c u r q
  | 0, hn, q => by
    rw [outsAt0_A V c ⟨0, hn⟩ rfl]
    dsimp only
    refine (out_A_3_row0 c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr rfl)
      (iblk0 V c 0 ⟨0, hn⟩) (iblk0 V c 1 ⟨0, hn⟩) q).trans ?_
    rw [Finset.sum_range_one]
    exact congrArg (zeroW + ·) (Finset.sum_congr rfl fun r _ => (yblk_of_lt V c 0 hn r q).symm)
  | n + 1, hn, q => by
    have hN : cfg0.N = 32 := N_0
    have hB : ¬(⟨n + 1, hn⟩ : Fin cfg0.N).val % 32 = 0 := by dsimp only; omega
    rw [outsAt0_B V c ⟨n + 1, hn⟩ hB]
    dsimp only
    refine (out_B_3_row0 c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (iblk0 V c 0 ⟨n + 1, hn⟩) (iblk0 V c 1 ⟨n + 1, hn⟩)
      (outsAt0 V c n (Nat.lt_of_succ_lt hn)).2 q).trans ?_
    rw [outs_row0 c n (Nat.lt_of_succ_lt hn) q, Finset.sum_range_succ _ (n + 1), add_assoc]
    exact congrArg (fun z => zeroW + (_ + z)) (Finset.sum_congr rfl fun r _ => (yblk_of_lt V c (n + 1) hn r q).symm)

set_option maxHeartbeats 1000000 in
/-- After point `n` row 1 of the accumulator holds the zero word plus the column sums of the squares so far. -/
theorem outs_row1 (c : Dev nD) : ∀ (n : ℕ) (hn : n < cfg0.N) (q : Fin 64),
    (outsAt0 V c n hn).2 (ix2 (1 : Fin 2) q)
      = zeroW + ∑ u ∈ Finset.range (n + 1), ∑ r : Fin 4096, yblk V c u r q * yblk V c u r q
  | 0, hn, q => by
    rw [outsAt0_A V c ⟨0, hn⟩ rfl]
    dsimp only
    refine (out_A_3_row1 c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr rfl)
      (iblk0 V c 0 ⟨0, hn⟩) (iblk0 V c 1 ⟨0, hn⟩) q).trans ?_
    rw [Finset.sum_range_one]
    exact congrArg (zeroW + ·) (Finset.sum_congr rfl fun r _ => by rw [yblk_of_lt V c 0 hn r q])
  | n + 1, hn, q => by
    have hN : cfg0.N = 32 := N_0
    have hB : ¬(⟨n + 1, hn⟩ : Fin cfg0.N).val % 32 = 0 := by dsimp only; omega
    rw [outsAt0_B V c ⟨n + 1, hn⟩ hB]
    dsimp only
    refine (out_B_3_row1 c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (iblk0 V c 0 ⟨n + 1, hn⟩) (iblk0 V c 1 ⟨n + 1, hn⟩)
      (outsAt0 V c n (Nat.lt_of_succ_lt hn)).2 q).trans ?_
    rw [outs_row1 c n (Nat.lt_of_succ_lt hn) q, Finset.sum_range_succ _ (n + 1), add_assoc]
    exact congrArg (fun z => zeroW + (_ + z))
      (Finset.sum_congr rfl fun r _ => by rw [yblk_of_lt V c (n + 1) hn r q])

end Cert.KernelIdeal.Fold

end
-- ==== Proof.Region0Arrays.lean ====
/-
  What the first kernel leaves in its two result arrays.

  The features `M` (131072 × 64) are read in 32 blocks of 4096 rows; the weight `W` (64 × 64) whole at every point.
  Point `t` writes rows 4096·t … 4096·t + 4095 of the product array, so the product array ends holding
  `Y p q = lin M W p q` at every index (`final_y`). The 2 × 64 accumulator is one block, written back after the last
  point only: it ends holding the zero word plus the sums over all 32 blocks, which regrouped as one sum over the 131072
  rows are the column sums of `Y` and of `Y²` (`final_stats_row0`, `final_stats_row1`).
-/
import proofs.«112230_j85169201479757_1_alg».proof.Proof.StatsFold
import proofs.«112230_j85169201479757_1_alg».proof.Proof.LibBinCount

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.BatchNorm Cert.KernelIdeal.Body Cert.KernelIdeal.Fold

variable (V : (c : Dev nD) → (b : Ref sig .tc) → Buf (Elt Ideal) ((c : Thread nD τ).loc b))

/-- The windows' block indices over the grid: the features and the product move one block per point along the rows;
    the weight and the accumulator stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The features and the weight as the region finds them. -/
abbrev Mk (c : Dev nD) : S131072x64.Idx → EReal := V c main_v4
abbrev Wk (c : Dev nD) : S64x64.Idx → EReal := V c main_arg2

/-- Row `4096·t + r` of the array, as an index coordinate. -/
abbrev rowOf (t : Fin cfg0.N) (r : Fin 4096) : Fin 131072 :=
  ⟨t.val * 4096 + r.val, by have := t.isLt; have hN : cfg0.N = 32 := N_0; have := r.isLt; omega⟩

/-- Point `t`'s block of the features at `(r, e)` is the features at row `4096·t + r`. -/
theorem iblk_feat (c : Dev nD) (t : Fin cfg0.N) (r : Fin 4096) (e : Fin 64) :
    iblk0 V c 0 t (ix2 r e) = Mk V c (ix2 (rowOf t r) e) := by
  obtain ⟨e0, e1, -⟩ := idx_facts t
  unfold iblk0
  rw [View.read_apply]
  show V c main_v4 (((cfg0.win 0).blk t).view.emb (ix2 r e)) = V c main_v4 (ix2 (rowOf t r) e)
  refine congrArg (V c main_v4) (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 64 + 1 * e.val = e.val; rw [e1]; omega

/-- Every point's block of the weight is the weight. -/
theorem iblk_weight (c : Dev nD) (t : Fin cfg0.N) (e q : Fin 64) :
    iblk0 V c 1 t (ix2 e q) = Wk V c (ix2 e q) := by
  obtain ⟨-, -, e2, e3, -⟩ := idx_facts t
  unfold iblk0
  rw [View.read_apply]
  show V c main_arg2 (((cfg0.win 1).blk t).view.emb (ix2 e q)) = V c main_arg2 (ix2 e q)
  refine congrArg (V c main_arg2) (funext fun a => Fin.ext ?_)
  match a with
  | ⟨0, _⟩ => show win0_1.index t (0 : Fin 2) * 64 + 1 * e.val = e.val; rw [e2]; omega
  | ⟨1, _⟩ => show win0_1.index t (1 : Fin 2) * 64 + 1 * q.val = q.val; rw [e3]; omega

/-- Point `t`'s block product at `(r, q)` is the linear layer at row `4096·t + r`. -/
theorem yblk_eq_lin (c : Dev nD) (t : Fin cfg0.N) (r : Fin 4096) (q : Fin 64) :
    k0_pay2 (F := Ideal) (iblk0 V c 0 t) (iblk0 V c 1 t) (ix2 r q) = lin (Mk V c) (Wk V c) (rowOf t r) q := by
  refine (pay2_apply (iblk0 V c 0 t) (iblk0 V c 1 t) r q).trans ?_
  unfold lin
  exact Finset.sum_congr rfl fun e _ => by rw [iblk_feat V c t r e, iblk_weight V c t e q]

/-! ## The product array -/

/-- The product array the kernel leaves: the linear layer at every index. -/
abbrev Yarr (c : Dev nD) : S131072x64.Idx → EReal := fun i => lin (Mk V c) (Wk V c) (i 0) (i 1)

/-- What point `t` writes back is block `t` of that array. -/
theorem flushed_y (c : Dev nD) (t : Fin cfg0.N) :
    (dat0 V c).flushed 2 t = ((cfg0.win 2).blk t).view.read (Elt Ideal) (Yarr V c) := by
  obtain ⟨-, -, -, -, e4, e5, -⟩ := idx_facts t
  show (cfg0.win 2).cut (grid0.coords t) ((dat0 V c).after 2 t) = _
  rw [after0_2, outs_fst V c t]
  funext j
  obtain ⟨r, q, rfl⟩ : ∃ (r : Fin 4096) (q : Fin 64), j = ix2 r q := ⟨j 0, j 1, eq_ix2 j⟩
  rw [View.read_apply]
  have hemb : ((cfg0.win 2).blk t).view.emb (ix2 r q) = (ix2 (rowOf t r) q : S131072x64.Idx) := by
    funext a; apply Fin.ext
    match a with
    | ⟨0, _⟩ => show win0_2.index t (0 : Fin 2) * 4096 + 1 * r.val = t.val * 4096 + r.val; rw [e4]; omega
    | ⟨1, _⟩ => show win0_2.index t (1 : Fin 2) * 64 + 1 * q.val = q.val; rw [e5]; omega
  rw [hemb]
  exact yblk_eq_lin V c t r q

theorem mem_blk_y (t : Fin cfg0.N) (i : S131072x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v5_0).slice (win0_2.rect t)).set ↔ _
  rw [View.set_slice_whole, Rect.mem_set_unit]
  exact Iff.rfl

/-- Row `p` lies in the block of point `p / 4096`. -/
theorem cover_y (i : S131072x64.Idx) :
    ∃ t : Fin cfg0.N, (cfg0.win 2).flush t = true ∧ i ∈ ((cfg0.win 2).blk t).view.set := by
  have hN : cfg0.N = 32 := N_0
  have hi0 : (i 0).val < 131072 := (i 0).isLt
  have hi1 : (i 1).val < 64 := (i 1).isLt
  let t : Fin cfg0.N := ⟨(i 0).val / 4096, by omega⟩
  obtain ⟨-, -, -, -, e4, e5, -⟩ := idx_facts t
  refine ⟨t, flush0_2 t, ?_⟩
  rw [mem_blk_y]
  intro a
  match a with
  | ⟨0, _⟩ =>
    show win0_2.index t (0 : Fin 2) * 4096 ≤ (i 0).val ∧ (i 0).val < win0_2.index t (0 : Fin 2) * 4096 + 4096
    rw [e4]; show (i 0).val / 4096 * 4096 ≤ (i 0).val ∧ (i 0).val < (i 0).val / 4096 * 4096 + 4096; omega
  | ⟨1, _⟩ =>
    show win0_2.index t (1 : Fin 2) * 64 ≤ (i 1).val ∧ (i 1).val < win0_2.index t (1 : Fin 2) * 64 + 64
    rw [e5]; omega

/-- The product array after the run. -/
theorem final_y (c : Dev nD) : (dat0 V c).arrAt 2 cfg0.N = Yarr V c :=
  (dat0 V c).arrAt_eq_of_cover 2 (Yarr V c) (fun t _ => flushed_y V c t) (cover_y)

/-! ## The accumulator -/

/-- The 32 block sums of 4096 rows each are one sum over the 131072 rows. -/
theorem sum_blocks (c : Dev nD) (g : EReal → EReal) (q : Fin 64) :
    ∑ u ∈ Finset.range 32, ∑ r : Fin 4096, g (yblk V c u r q)
      = ∑ p : Fin 131072, g (lin (Mk V c) (Wk V c) p q) := by
  have hN : cfg0.N = 32 := N_0
  have h := Cert.BinCount.sum_runs 32 4096 (fun p : Fin (32 * 4096) => g (lin (Mk V c) (Wk V c) p q))
  refine Eq.trans ?_ h.symm
  refine Finset.sum_congr rfl fun u hu => Finset.sum_congr rfl fun r _ => ?_
  have hu' : u < 32 := Finset.mem_range.mp hu
  have hr : r.val < 4096 := r.isLt
  rw [dif_pos (by omega), yblk_of_lt V c u (by omega) r q]
  exact congrArg g (yblk_eq_lin V c ⟨u, by omega⟩ r q)

/-- What the accumulator ends holding: the column sums of the product array in row 0, of its squares in row 1. -/
def statsArr (c : Dev nD) : S2x64.Idx → EReal := fun j =>
  if (j 0).val = 0 then colSum (fun p q => lin (Mk V c) (Wk V c) p q) (j 1)
  else colSumSq (fun p q => lin (Mk V c) (Wk V c) p q) (j 1)

theorem statsArr_row0 (c : Dev nD) (q : Fin 64) :
    statsArr V c (ix2 (0 : Fin 2) q) = colSum (fun p q => lin (Mk V c) (Wk V c) p q) q := if_pos rfl
theorem statsArr_row1 (c : Dev nD) (q : Fin 64) :
    statsArr V c (ix2 (1 : Fin 2) q) = colSumSq (fun p q => lin (Mk V c) (Wk V c) p q) q :=
  if_neg (show ¬((1 : ℕ) = 0) from Nat.one_ne_zero)

/-- After the last point the accumulator's staging buffer holds those sums. -/
theorem outs_last (c : Dev nD) (hn : 31 < cfg0.N) (a : Fin 2) (q : Fin 64) :
    (outsAt0 V c 31 hn).2 (ix2 a q) = statsArr V c (ix2 a q) := by
  match a with
  | ⟨0, _⟩ =>
    refine (outs_row0 V c 31 hn q).trans ?_
    refine Eq.trans ?_ (statsArr_row0 V c q).symm
    unfold colSum
    exact congrArg (zeroW + ·) (sum_blocks V c (fun z => z) q)
  | ⟨1, _⟩ =>
    refine (outs_row1 V c 31 hn q).trans ?_
    refine Eq.trans ?_ (statsArr_row1 V c q).symm
    unfold colSumSq
    exact congrArg (zeroW + ·) (sum_blocks V c (fun z => z * z) q)

/-- The one write-back, after the last point, writes them: the accumulator's one block is the whole array. -/
theorem flushed_stats (c : Dev nD) (t : Fin cfg0.N) (hf : (cfg0.win 3).flush t = true) :
    (dat0 V c).flushed 3 t = ((cfg0.win 3).blk t).view.read (Elt Ideal) (statsArr V c) := by
  have hN : cfg0.N = 32 := N_0
  have h31 : t.val = 31 := by have := (flush0_3 t).mp hf; have := t.isLt; omega
  obtain ⟨-, -, -, -, -, -, e6, e7⟩ := idx_facts t
  show (cfg0.win 3).cut (grid0.coords t) ((dat0 V c).after 3 t) = _
  rw [after0_3]
  funext j
  obtain ⟨a, q, rfl⟩ : ∃ (a : Fin 2) (q : Fin 64), j = ix2 a q := ⟨j 0, j 1, eq_ix2 j⟩
  rw [View.read_apply]
  have hemb : ((cfg0.win 3).blk t).view.emb (ix2 a q) = (ix2 a q : S2x64.Idx) := by
    funext b; apply Fin.ext
    match b with
    | ⟨0, _⟩ => show win0_3.index t (0 : Fin 2) * 2 + 1 * a.val = a.val; rw [e6]; omega
    | ⟨1, _⟩ => show win0_3.index t (1 : Fin 2) * 64 + 1 * q.val = q.val; rw [e7]; omega
  rw [hemb]
  obtain ⟨tv, htv⟩ := t
  obtain rfl : tv = 31 := h31
  exact outs_last V c htv a q

theorem mem_blk_stats (t : Fin cfg0.N) (i : S2x64.Idx) :
    i ∈ ((cfg0.win 3).blk t).view.set ↔ ∀ a : Fin 2, win0_3.index t a * S2x64.size a ≤ (i a).val
      ∧ (i a).val < win0_3.index t a * S2x64.size a + S2x64.size a := by
  show i ∈ ((View.whole main_v5_1).slice (win0_3.rect t)).set ↔ _
  rw [View.set_slice_whole, Rect.mem_set_unit]
  exact Iff.rfl

theorem cover_stats (i : S2x64.Idx) :
    ∃ t : Fin cfg0.N, (cfg0.win 3).flush t = true ∧ i ∈ ((cfg0.win 3).blk t).view.set := by
  have hN : cfg0.N = 32 := N_0
  have hi0 : (i 0).val < 2 := (i 0).isLt
  have hi1 : (i 1).val < 64 := (i 1).isLt
  let t : Fin cfg0.N := ⟨31, by omega⟩
  obtain ⟨-, -, -, -, -, -, e6, e7⟩ := idx_facts t
  refine ⟨t, (flush0_3 t).mpr rfl, ?_⟩
  rw [mem_blk_stats]
  intro a
  match a with
  | ⟨0, _⟩ =>
    show win0_3.index t (0 : Fin 2) * 2 ≤ (i 0).val ∧ (i 0).val < win0_3.index t (0 : Fin 2) * 2 + 2
    rw [e6]; omega
  | ⟨1, _⟩ =>
    show win0_3.index t (1 : Fin 2) * 64 ≤ (i 1).val ∧ (i 1).val < win0_3.index t (1 : Fin 2) * 64 + 64
    rw [e7]; omega

/-- The accumulator array after the run. -/
theorem final_stats (c : Dev nD) : (dat0 V c).arrAt 3 cfg0.N = statsArr V c :=
  (dat0 V c).arrAt_eq_of_cover 3 (statsArr V c) (flushed_stats V c) (cover_stats)

end Cert.KernelIdeal.Region0

end
-- ==== Proof.Region1Arrays.lean ====
/-
  What the second kernel leaves in its result array.

  It reads the product array `Y` in 32 blocks of 4096 rows and four rows of 64 numbers (a mean, a scale and the two
  affine parameters, each a 1 × 64 array read whole at every point) and writes, at `(p, q)`,
  `(Y p q − a q) · b q · g q + h q`. Point `t` writes rows 4096·t … 4096·t + 4095, so the result array ends holding
  that expression at every index (`final_out`).
-/
import proofs.«112230_j85169201479757_1_alg».proof.Proof.Gen.KernelIdeal.Frame
import proofs.«112230_j85169201479757_1_alg».proof.Proof.Spec
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

theorem hz : (![0, 0] : Fin 2 → Nat) = fun _ => 0 := funext fun a => by fin_cases a <;> rfl

/-- A 1 × 64 row broadcast over 4096 rows reads, at `(r, q)`, the row at `q`. -/
theorem row_bcast (v : Vec Ideal S1x64 .f32) (r : Fin 4096) (q : Fin 64) :
    broadcastTo S4096x64 (shapeCast S1x64 v shapeCasts_S1x64_S1x64) broadcasts_S1x64_S4096x64 (ix2 r q)
      = v (ix2 (0 : Fin 1) q) :=
  (broadcastTo_1b_ab_apply _ _ r q).trans (congrFun (shapeCast_self v _) _)

/-- The body's one stored value at `(r, q)`. -/
theorem k1_apply (v0 : Vec Ideal S4096x64 .f32) (v2 v6 v10 v14 : Vec Ideal S1x64 .f32) (r : Fin 4096) (q : Fin 64) :
    k1_pay1 (F := Ideal) v0 v2 v6 v10 v14 (ix2 r q)
      = (v0 (ix2 r q) - v2 (ix2 (0 : Fin 1) q)) * v6 (ix2 (0 : Fin 1) q) * v10 (ix2 (0 : Fin 1) q)
        + v14 (ix2 (0 : Fin 1) q) := by
  unfold k1_pay1
  refine (addf_apply _ _ _).trans (congrArg₂ (· + ·) ?_ (row_bcast v14 r q))
  refine (mulf_apply _ _ _).trans (congrArg₂ (· * ·) ?_ (row_bcast v10 r q))
  refine (mulf_apply _ _ _).trans (congrArg₂ (· * ·) ?_ (row_bcast v6 r q))
  refine (subf_apply _ _ _).trans (congrArg₂ (· - ·) ?_ (row_bcast v2 r q))
  exact congrFun (shapeCast_self v0 _) _

variable (V : (c : Dev nD) → (b : Ref sig .tc) → Buf (Elt Ideal) ((c : Thread nD τ).loc b))

/-- The windows' block indices over the grid: the product array and the result move one block per point along the
    rows; the four rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `4096·t + r` of the array, as an index coordinate. -/
abbrev rowOf (t : Fin cfg1.N) (r : Fin 4096) : Fin 131072 :=
  ⟨t.val * 4096 + r.val, by have := t.isLt; have hN : cfg1.N = 32 := N_1; have := r.isLt; omega⟩

theorem iblk_y (c : Dev nD) (t : Fin cfg1.N) (r : Fin 4096) (q : Fin 64) :
    iblk1 V c 0 t (ix2 r q) = V c main_v5_0 (ix2 (rowOf t r) q) := by
  obtain ⟨e0, e1, -⟩ := idx_facts t
  unfold iblk1
  rw [View.read_apply]
  show V c main_v5_0 (((cfg1.win 0).blk t).view.emb (ix2 r q)) = V c main_v5_0 (ix2 (rowOf t r) q)
  refine congrArg (V c main_v5_0) (funext fun a => Fin.ext ?_)
  match a with
  | ⟨0, _⟩ => show win1_0.index t (0 : Fin 2) * 4096 + 1 * r.val = t.val * 4096 + r.val; rw [e0]; omega
  | ⟨1, _⟩ => show win1_0.index t (1 : Fin 2) * 64 + 1 * q.val = q.val; rw [e1]; omega

theorem iblk_mean (c : Dev nD) (t : Fin cfg1.N) (z : Fin 1) (q : Fin 64) :
    iblk1 V c 1 t (ix2 z q) = V c main_v19 (ix2 (0 : Fin 1) q) := by
  obtain ⟨-, -, e2, e3, -⟩ := idx_facts t
  unfold iblk1
  rw [View.read_apply]
  show V c main_v19 (((cfg1.win 1).blk t).view.emb (ix2 z q)) = V c main_v19 (ix2 (0 : Fin 1) q)
  refine congrArg (V c main_v19) (funext fun a => Fin.ext ?_)
  match a with
  | ⟨0, _⟩ => show win1_1.index t (0 : Fin 2) * 1 + 1 * z.val = 0; rw [e2]; omega
  | ⟨1, _⟩ => show win1_1.index t (1 : Fin 2) * 64 + 1 * q.val = q.val; rw [e3]; omega

theorem iblk_scale (c : Dev nD) (t : Fin cfg1.N) (z : Fin 1) (q : Fin 64) :
    iblk1 V c 2 t (ix2 z q) = V c main_v20 (ix2 (0 : Fin 1) q) := by
  obtain ⟨-, -, -, -, e4, e5, -⟩ := idx_facts t
  unfold iblk1
  rw [View.read_apply]
  show V c main_v20 (((cfg1.win 2).blk t).view.emb (ix2 z q)) = V c main_v20 (ix2 (0 : Fin 1) q)
  refine congrArg (V c main_v20) (funext fun a => Fin.ext ?_)
  match a with
  | ⟨0, _⟩ => show win1_2.index t (0 : Fin 2) * 1 + 1 * z.val = 0; rw [e4]; omega
  | ⟨1, _⟩ => show win1_2.index t (1 : Fin 2) * 64 + 1 * q.val = q.val; rw [e5]; omega

theorem iblk_gamma (c : Dev nD) (t : Fin cfg1.N) (z : Fin 1) (q : Fin 64) :
    iblk1 V c 3 t (ix2 z q) = V c main_v21 (ix2 (0 : Fin 1) q) := by
  obtain ⟨-, -, -, -, -, -, e6, e7, -⟩ := idx_facts t
  unfold iblk1
  rw [View.read_apply]
  show V c main_v21 (((cfg1.win 3).blk t).view.emb (ix2 z q)) = V c main_v21 (ix2 (0 : Fin 1) q)
  refine congrArg (V c main_v21) (funext fun a => Fin.ext ?_)
  match a with
  | ⟨0, _⟩ => show win1_3.index t (0 : Fin 2) * 1 + 1 * z.val = 0; rw [e6]; omega
  | ⟨1, _⟩ => show win1_3.index t (1 : Fin 2) * 64 + 1 * q.val = q.val; rw [e7]; omega

theorem iblk_beta (c : Dev nD) (t : Fin cfg1.N) (z : Fin 1) (q : Fin 64) :
    iblk1 V c 4 t (ix2 z q) = V c main_v22 (ix2 (0 : Fin 1) q) := by
  obtain ⟨-, -, -, -, -, -, -, -, e8, e9, -⟩ := idx_facts t
  unfold iblk1
  rw [View.read_apply]
  show V c main_v22 (((cfg1.win 4).blk t).view.emb (ix2 z q)) = V c main_v22 (ix2 (0 : Fin 1) q)
  refine congrArg (V c main_v22) (funext fun a => Fin.ext ?_)
  match a with
  | ⟨0, _⟩ => show win1_4.index t (0 : Fin 2) * 1 + 1 * z.val = 0; rw [e8]; omega
  | ⟨1, _⟩ => show win1_4.index t (1 : Fin 2) * 64 + 1 * q.val = q.val; rw [e9]; omega

/-- The five arrays the kernel reads, as the region finds them. -/
abbrev Yv (c : Dev nD) : S131072x64.Idx → EReal := V c main_v5_0
abbrev Av (c : Dev nD) : S1x64.Idx → EReal := V c main_v19
abbrev Bv (c : Dev nD) : S1x64.Idx → EReal := V c main_v20
abbrev Gv (c : Dev nD) : S1x64.Idx → EReal := V c main_v21
abbrev Hv (c : Dev nD) : S1x64.Idx → EReal := V c main_v22

/-- The result array the kernel leaves. -/
abbrev Oarr (c : Dev nD) : S131072x64.Idx → EReal := fun i =>
  (Yv V c (ix2 (i 0) (i 1)) - Av V c (ix2 (0 : Fin 1) (i 1))) * Bv V c (ix2 (0 : Fin 1) (i 1))
    * Gv V c (ix2 (0 : Fin 1) (i 1)) + Hv V c (ix2 (0 : Fin 1) (i 1))

/-- What point `t` writes back is block `t` of that array. -/
theorem flushed_out (c : Dev nD) (t : Fin cfg1.N) :
    (dat1 V c).flushed 5 t = ((cfg1.win 5).blk t).view.read (Elt Ideal) (Oarr V c) := by
  obtain ⟨-, -, -, -, -, -, -, -, -, -, e10, e11⟩ := idx_facts t
  show (cfg1.win 5).cut (grid1.coords t) ((dat1 V c).after 5 t) = _
  rw [after1_5]
  unfold out1_5
  rw [View.canon_unit_zero hz]
  simp only [View.ld_unit_zero (S := S4096x64) hz, View.ld_unit_zero (S := S1x64) hz]
  funext j
  obtain ⟨r, q, rfl⟩ : ∃ (r : Fin 4096) (q : Fin 64), j = ix2 r q := ⟨j 0, j 1, eq_ix2 j⟩
  rw [View.read_apply]
  have hemb : ((cfg1.win 5).blk t).view.emb (ix2 r q) = (ix2 (rowOf t r) q : S131072x64.Idx) := by
    funext a; apply Fin.ext
    match a with
    | ⟨0, _⟩ => show win1_5.index t (0 : Fin 2) * 4096 + 1 * r.val = t.val * 4096 + r.val; rw [e10]; omega
    | ⟨1, _⟩ => show win1_5.index t (1 : Fin 2) * 64 + 1 * q.val = q.val; rw [e11]; omega
  rw [hemb]
  refine (k1_apply (iblk1 V c 0 t) (iblk1 V c 1 t) (iblk1 V c 2 t) (iblk1 V c 3 t) (iblk1 V c 4 t) r q).trans ?_
  rw [iblk_y V c t r q, iblk_mean V c t 0 q, iblk_scale V c t 0 q, iblk_gamma V c t 0 q, iblk_beta V c t 0 q]
  all_goals rfl

theorem mem_blk_out (t : Fin cfg1.N) (i : S131072x64.Idx) :
    i ∈ ((cfg1.win 5).blk t).view.set ↔ ∀ a : Fin 2, win1_5.index t a * S4096x64.size a ≤ (i a).val
      ∧ (i a).val < win1_5.index t a * S4096x64.size a + S4096x64.size a := by
  show i ∈ ((View.whole main_v23).slice (win1_5.rect t)).set ↔ _
  rw [View.set_slice_whole, Rect.mem_set_unit]
  exact Iff.rfl

theorem cover_out (i : S131072x64.Idx) :
    ∃ t : Fin cfg1.N, (cfg1.win 5).flush t = true ∧ i ∈ ((cfg1.win 5).blk t).view.set := by
  have hN : cfg1.N = 32 := N_1
  have hi0 : (i 0).val < 131072 := (i 0).isLt
  have hi1 : (i 1).val < 64 := (i 1).isLt
  let t : Fin cfg1.N := ⟨(i 0).val / 4096, by omega⟩
  obtain ⟨-, -, -, -, -, -, -, -, -, -, e10, e11⟩ := idx_facts t
  refine ⟨t, flush1_5 t, ?_⟩
  rw [mem_blk_out]
  intro a
  match a with
  | ⟨0, _⟩ =>
    show win1_5.index t (0 : Fin 2) * 4096 ≤ (i 0).val ∧ (i 0).val < win1_5.index t (0 : Fin 2) * 4096 + 4096
    rw [e10]; show (i 0).val / 4096 * 4096 ≤ (i 0).val ∧ (i 0).val < (i 0).val / 4096 * 4096 + 4096; omega
  | ⟨1, _⟩ =>
    show win1_5.index t (1 : Fin 2) * 64 ≤ (i 1).val ∧ (i 1).val < win1_5.index t (1 : Fin 2) * 64 + 64
    rw [e11]; omega

/-- The result array after the run. -/
theorem final_out (c : Dev nD) : (dat1 V c).arrAt 5 cfg1.N = Oarr V c :=
  (dat1 V c).arrAt_eq_of_cover 5 (Oarr V c) (fun t _ => flushed_out V c t) (cover_out)

end Cert.KernelIdeal.Region1

end
-- ==== Proof.KernelHost.lean ====
/-
  The host operations before the first kernel, read as values.

  The program reshapes the index array to [8, 262144, 1], takes along axis 1 the rows of the input the indices name —
  a negative index first moved up by 16384, an index still outside 0 … 16383 answered by the fill value instead of a
  row —, regroups the rows in sixteens, takes the channelwise maximum of each sixteen starting from −∞, and lays the
  maxima out as 131072 rows of 64 channels: the features the first kernel reads (`V3_feat`). The weight reaches the
  kernel as launched (`V3_weight`).

  The take-along is an outlined function; its operations carry their values through typed references. Each of them
  is the plain operation on the same buffers (`gatherOps_eq`: one by one; for the reduction of the in-range mask the
  two transports are removed by hand, so that the reduction itself is never opened), and the fold over the plain list
  is the function `takeAlong` of the input and the reshaped indices (`gather_stretch`).
-/
import proofs.«112230_j85169201479757_1_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- The take-along's operations as plain operations on their buffers. -/
abbrev gatherOps : List (HloOp τ sig (Elt F)) :=
  [
    StableHlo.nullary main_call0_c (((constantI S_ 32 0#32)) : (⟨S_, .i32⟩ : BufTy).Contents (Elt F)),
    StableHlo.unary main_call0_c main_call0_v0 (((broadcastInDim S8x262144x1 ![] bcast_S_S8x262144x1)) : (⟨S_, .i32⟩ : BufTy).Contents (Elt F) → (⟨S8x262144x1, .i32⟩ : BufTy).Contents (Elt F)),
    StableHlo.binary main_v0 main_call0_v0 main_call0_v1 (((cmpi .slt)) : (⟨S8x262144x1, .i32⟩ : BufTy).Contents (Elt F) → (⟨S8x262144x1, .i32⟩ : BufTy).Contents (Elt F) → (⟨S8x262144x1, .i1⟩ : BufTy).Contents (Elt F)),
    StableHlo.nullary main_call0_c_0 (((constantI S_ 32 16384#32)) : (⟨S_, .i32⟩ : BufTy).Contents (Elt F)),
    StableHlo.unary main_call0_c_0 main_call0_v2 (((broadcastInDim S8x262144x1 ![] bcast_S_S8x262144x1)) : (⟨S_, .i32⟩ : BufTy).Contents (Elt F) → (⟨S8x262144x1, .i32⟩ : BufTy).Contents (Elt F)),
    StableHlo.binary main_v0 main_call0_v2 main_call0_v3 ((addi) : (⟨S8x262144x1, .i32⟩ : BufTy).Contents (Elt F) → (⟨S8x262144x1, .i32⟩ : BufTy).Contents (Elt F) → (⟨S8x262144x1, .i32⟩ : BufTy).Contents (Elt F)),
    StableHlo.ternary main_call0_v1 main_call0_v3 main_v0 main_call0_v4 ((select) : (⟨S8x262144x1, .i1⟩ : BufTy).Contents (Elt F) → (⟨S8x262144x1, .i32⟩ : BufTy).Contents (Elt F) → (⟨S8x262144x1, .i32⟩ : BufTy).Contents (Elt F) → (⟨S8x262144x1, .i32⟩ : BufTy).Contents (Elt F)),
    StableHlo.nullary main_call0_c_1 (((constantI S1 32 16383#32)) : (⟨S1, .i32⟩ : BufTy).Contents (Elt F)),
    StableHlo.nullary main_call0_c_2 (((constantI S_ 32 0#32)) : (⟨S_, .i32⟩ : BufTy).Contents (Elt F)),
    StableHlo.unary main_call0_c_2 main_call0_v5 (((broadcastInDim S8x262144x1 ![] bcast_S_S8x262144x1)) : (⟨S_, .i32⟩ : BufTy).Contents (Elt F) → (⟨S8x262144x1, .i32⟩ : BufTy).Contents (Elt F)),
    StableHlo.binary main_call0_v4 main_call0_v5 main_call0_v6 (((cmpi .sge)) : (⟨S8x262144x1, .i32⟩ : BufTy).Contents (Elt F) → (⟨S8x262144x1, .i32⟩ : BufTy).Contents (Elt F) → (⟨S8x262144x1, .i1⟩ : BufTy).Contents (Elt F)),
    StableHlo.unary main_call0_c_1 main_call0_v7 (((broadcastInDim S1x1x1 ![2] bcast_S1_S1x1x1_2)) : (⟨S1, .i32⟩ : BufTy).Contents (Elt F) → (⟨S1x1x1, .i32⟩ : BufTy).Contents (Elt F)),
    StableHlo.unary main_call0_v7 main_call0_v8 (((broadcastInDim S8x262144x1 ![0, 1, 2] bcast_S1x1x1_S8x262144x1_0_1_2)) : (⟨S1x1x1, .i32⟩ : BufTy).Contents (Elt F) → (⟨S8x262144x1, .i32⟩ : BufTy).Contents (Elt F)),
    StableHlo.binary main_call0_v4 main_call0_v8 main_call0_v9 (((cmpi .sle)) : (⟨S8x262144x1, .i32⟩ : BufTy).Contents (Elt F) → (⟨S8x262144x1, .i32⟩ : BufTy).Contents (Elt F) → (⟨S8x262144x1, .i1⟩ : BufTy).Contents (Elt F)),
    StableHlo.binary main_call0_v6 main_call0_v9 main_call0_v10 ((andi) : (⟨S8x262144x1, .i1⟩ : BufTy).Contents (Elt F) → (⟨S8x262144x1, .i1⟩ : BufTy).Contents (Elt F) → (⟨S8x262144x1, .i1⟩ : BufTy).Contents (Elt F)),
    StableHlo.nullary main_call0_c_3 (((constantI S_ 1 1#1)) : (⟨S_, .i1⟩ : BufTy).Contents (Elt F)),
    StableHlo.binary main_call0_v10 main_call0_c_3 main_call0_v11 (((fun x v => Host.reduce IntOp.andi x v reducesTo_S8x262144x1_S8x262144_d2 h_S_)) : (⟨S8x262144x1, .i1⟩ : BufTy).Contents (Elt F) → (⟨S_, .i1⟩ : BufTy).Contents (Elt F) → (⟨S8x262144, .i1⟩ : BufTy).Contents (Elt F)),
    StableHlo.binary main_arg0 main_call0_v4 main_call0_v12 (((fun x i => Host.gather gather_S8x16384x64_S8x262144x1_S8x262144x64_2_1_0_0_1_2_1164 x i)) : (⟨S8x16384x64, .f32⟩ : BufTy).Contents (Elt F) → (⟨S8x262144x1, .i32⟩ : BufTy).Contents (Elt F) → (⟨S8x262144x64, .f32⟩ : BufTy).Contents (Elt F)),
    StableHlo.unary main_call0_v11 main_call0_v13 (((broadcastInDim S8x262144x64 ![0, 1] bcast_S8x262144_S8x262144x64_0_1)) : (⟨S8x262144, .i1⟩ : BufTy).Contents (Elt F) → (⟨S8x262144x64, .i1⟩ : BufTy).Contents (Elt F)),
    StableHlo.nullary main_call0_cst (((constant S_ .f32 0x7FC00000#32)) : (⟨S_, .f32⟩ : BufTy).Contents (Elt F)),
    StableHlo.unary main_call0_cst main_call0_v14 (((broadcastInDim S8x262144x64 ![] bcast_S_S8x262144x64)) : (⟨S_, .f32⟩ : BufTy).Contents (Elt F) → (⟨S8x262144x64, .f32⟩ : BufTy).Contents (Elt F)),
    StableHlo.ternary main_call0_v13 main_call0_v12 main_call0_v14 main_v1 ((select) : (⟨S8x262144x64, .i1⟩ : BufTy).Contents (Elt F) → (⟨S8x262144x64, .f32⟩ : BufTy).Contents (Elt F) → (⟨S8x262144x64, .f32⟩ : BufTy).Contents (Elt F) → (⟨S8x262144x64, .f32⟩ : BufTy).Contents (Elt F)) ]

/-- The reduction of the in-range mask: its typed form is the plain one (the transports are identities). -/
theorem maskReduce_eq :
    (StableHlo.TRef.binary (.of main_call0_v10 : StableHlo.TRef sig ⟨S8x262144x1, .i1⟩) (.of main_call0_c_3 : StableHlo.TRef sig ⟨S_, .i1⟩) (.of main_call0_v11 : StableHlo.TRef sig ⟨S8x262144, .i1⟩) (fun x v => Host.reduce IntOp.andi x v reducesTo_S8x262144x1_S8x262144_d2 h_S_) : HloOp τ sig (Elt F))
      = StableHlo.binary main_call0_v10 main_call0_c_3 main_call0_v11 (((fun x v => Host.reduce IntOp.andi x v reducesTo_S8x262144x1_S8x262144_d2 h_S_)) : (⟨S8x262144x1, .i1⟩ : BufTy).Contents (Elt F) → (⟨S_, .i1⟩ : BufTy).Contents (Elt F) → (⟨S8x262144, .i1⟩ : BufTy).Contents (Elt F)) := by
  refine congrArg (fun f => StableHlo.binary main_call0_v10 main_call0_c_3 main_call0_v11 f) ?_
  funext u v
  exact (cast_eq _ _).trans (congrArg₂
    (fun x y => Host.reduce IntOp.andi x y reducesTo_S8x262144x1_S8x262144_d2 h_S_) (cast_eq _ u) (cast_eq _ v))

theorem gatherOps_eq : (hostOps0_1 : List (HloOp τ sig (Elt F))) = gatherOps := by
  iterate 16 (refine congrArg₂ List.cons rfl ?_)
  refine congrArg₂ List.cons maskReduce_eq ?_
  iterate 5 (refine congrArg₂ List.cons rfl ?_)
  rfl

/-- Rows taken along axis 1: indices below zero moved up by 16384; where the moved index is still outside
    0 … 16383 the fill value stands in place of a row. -/
def takeAlong (x : (⟨S8x16384x64, .f32⟩ : BufTy).Contents (Elt F)) (idx : (⟨S8x262144x1, .i32⟩ : BufTy).Contents (Elt F)) :
    (⟨S8x262144x64, .f32⟩ : BufTy).Contents (Elt F) :=
  let v4 : (⟨S8x262144x1, .i32⟩ : BufTy).Contents (Elt F) :=
    select (cmpi .slt idx (broadcastInDim S8x262144x1 ![] bcast_S_S8x262144x1 (constantI S_ 32 0#32)))
      (addi idx (broadcastInDim S8x262144x1 ![] bcast_S_S8x262144x1 (constantI S_ 32 16384#32))) idx
  let v10 : (⟨S8x262144x1, .i1⟩ : BufTy).Contents (Elt F) :=
    andi (cmpi .sge v4 (broadcastInDim S8x262144x1 ![] bcast_S_S8x262144x1 (constantI S_ 32 0#32)))
      (cmpi .sle v4 (broadcastInDim S8x262144x1 ![0, 1, 2] bcast_S1x1x1_S8x262144x1_0_1_2
        (broadcastInDim S1x1x1 ![2] bcast_S1_S1x1x1_2 (constantI S1 32 16383#32))))
  let v11 : (⟨S8x262144, .i1⟩ : BufTy).Contents (Elt F) :=
    Host.reduce IntOp.andi v10 (constantI S_ 1 1#1) reducesTo_S8x262144x1_S8x262144_d2 h_S_
  select (broadcastInDim S8x262144x64 ![0, 1] bcast_S8x262144_S8x262144x64_0_1 v11)
    (Host.gather gather_S8x16384x64_S8x262144x1_S8x262144x64_2_1_0_0_1_2_1164 x v4)
    (broadcastInDim S8x262144x64 ![] bcast_S_S8x262144x64 (constant S_ .f32 0x7FC00000#32))

/-- The features: the channelwise maxima of the sixteens of taken rows, as 131072 rows of 64 channels. -/
def featK (x : (⟨S8x16384x64, .f32⟩ : BufTy).Contents (Elt F)) (idx : (⟨S8x16384x16, .i32⟩ : BufTy).Contents (Elt F)) :
    (⟨S131072x64, .f32⟩ : BufTy).Contents (Elt F) :=
  shapeCast S131072x64
    (Host.reduce FloatOps.maximumf
      (shapeCast S8x16384x16x64 (takeAlong x (shapeCast S8x262144x1 idx shapeCasts_S8x16384x16_S8x262144x1))
        shapeCasts_S8x262144x64_S8x16384x16x64)
      (constant S_ .f32 0xFF800000#32) reducesTo_S8x16384x16x64_S8x16384x64_d2 h_S_)
    shapeCasts_S8x16384x64_S131072x64

section Stretches

variable (V : Valuation τ sig (Elt F))

theorem reshape_idx : StableHlo.after (hostOps0 (F := F)) V (Proc.devRef .tc main_v0)
    = shapeCast S8x262144x1 (V (Proc.devRef .tc main_arg1)) shapeCasts_S8x16384x16_S8x262144x1 := by
  after_results <;> rfl

theorem reshape_idx_arg0 : StableHlo.after (hostOps0 (F := F)) V (Proc.devRef .tc main_arg0) = V (Proc.devRef .tc main_arg0) := by
  after_results

theorem reshape_idx_arg2 : StableHlo.after (hostOps0 (F := F)) V (Proc.devRef .tc main_arg2) = V (Proc.devRef .tc main_arg2) := by
  after_results

theorem gather_stretch : StableHlo.after (gatherOps (F := F)) V (Proc.devRef .tc main_v1)
    = takeAlong (F := F) (V (Proc.devRef .tc main_arg0)) (V (Proc.devRef .tc main_v0)) := by
  after_results_simp
  rfl

theorem gather_stretch_arg2 : StableHlo.after (gatherOps (F := F)) V (Proc.devRef .tc main_arg2) = V (Proc.devRef .tc main_arg2) := by
  after_results_simp

theorem max_stretch : StableHlo.after (hostOps0_2 (F := F)) V (Proc.devRef .tc main_v4)
    = shapeCast S131072x64
        (Host.reduce FloatOps.maximumf
          (shapeCast S8x16384x16x64 (V (Proc.devRef .tc main_v1)) shapeCasts_S8x262144x64_S8x16384x16x64)
          (constant S_ .f32 0xFF800000#32) reducesTo_S8x16384x16x64_S8x16384x64_d2 h_S_)
        shapeCasts_S8x16384x64_S131072x64 := by
  after_results <;> rfl

theorem max_stretch_arg2 : StableHlo.after (hostOps0_2 (F := F)) V (Proc.devRef .tc main_arg2) = V (Proc.devRef .tc main_arg2) := by
  after_results

end Stretches

variable (m : (ℓ : Loc nD τ sig) → Buf (Elt F) ℓ) (ρ : Dev nD → PrngReg)

/-- What the first kernel finds as its features. -/
theorem V3_feat (c : Dev nD) :
    V3 m ρ c main_v4 = featK (m ((c : Thread nD τ).loc main_arg0)) (m ((c : Thread nD τ).loc main_arg1)) := by
  show StableHlo.after hostOps0_2 (StableHlo.after hostOps0_1 (StableHlo.after hostOps0 (W0 m ρ c))) (Proc.devRef .tc main_v4) = _
  rw [gatherOps_eq, max_stretch, gather_stretch, reshape_idx, reshape_idx_arg0]
  rfl

/-- What the first kernel finds as its weight: the argument as launched. -/
theorem V3_weight (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  rw [gatherOps_eq, max_stretch_arg2, gather_stretch_arg2, reshape_idx_arg2]
  all_goals rfl

end Cert.KernelIdeal.Host

end
-- ==== Proof.LibRowSlice.lean ====
/-
  Unit-stride slices of a rank-2 array read at an index, in coordinates.

  A `[1, n]` slice of an `[m, n]` array taken at offsets `(r, 0)` is row `r`: its entry `(0, q)` is the array's entry
  `(r, q)` (`row_slice_apply`). A `[1, 1]` slice taken at offsets `(r, c)` has one entry, the array's entry `(r, c)`
  (`entry_slice_apply`). Both are the slice's defining re-indexing, offset plus local coordinate, written with
  indices built from coordinates so that later steps can compare them by arithmetic.
-/
import Idealize.ShloMosaic.Lib.Pipeline.Value
import Idealize.ShloMosaic.Lib.ValueIdx

namespace Cert.LibRowSlice

open Idealize.ShloMosaic Idealize.ShloMosaic.ValueIdx

variable {α : Type}

/-- Row `r` of an `[m, n]` array, taken as the `[1, n]` slice at offsets `(r, 0)`, read at column `q`, is the
    array at `(r, q)`. -/
theorem row_slice_apply {m n : Nat} (off : Fin 2 → Nat) (x : (⟨2, ![m, n]⟩ : Shape).Idx → α)
    (h : (⟨2, ![m, n]⟩ : Shape).Slices off ⟨2, ![1, n]⟩) (r : Fin m) (hr : off 0 = r.val) (h0 : off 1 = 0)
    (z : Fin 1) (q : Fin n) :
    extractStridedSlice ⟨2, ![1, n]⟩ off x h (ix2 z q) = x (ix2 r q) :=
  extractStridedSlice_apply off x h (ix2 z q) (ix2 r q) (fun a => match a with
    | ⟨0, _⟩ => by have := z.isLt; show r.val = off 0 + z.val; omega
    | ⟨1, _⟩ => by show q.val = off 1 + q.val; omega)

/-- The one entry of the `[1, 1]` slice of an `[m, n]` array at offsets `(r, c)` is the array at `(r, c)`. -/
theorem entry_slice_apply {m n : Nat} (off : Fin 2 → Nat) (x : (⟨2, ![m, n]⟩ : Shape).Idx → α)
    (h : (⟨2, ![m, n]⟩ : Shape).Slices off ⟨2, ![1, 1]⟩) (pos : Fin 2 → Nat)
    (hp : ∀ a, pos a < (⟨2, ![1, 1]⟩ : Shape).size a) (r : Fin m) (c : Fin n) (hr : off 0 = r.val) (hc : off 1 = c.val) :
    extractAt pos (extractStridedSlice ⟨2, ![1, 1]⟩ off x h) hp = x (ix2 r c) := by
  unfold extractAt
  exact extractStridedSlice_apply off x h _ (ix2 r c) (fun a => match a with
    | ⟨0, _⟩ => by have := hp 0; show r.val = off 0 + pos 0; (have : pos 0 < 1 := this); omega
    | ⟨1, _⟩ => by have := hp 1; show c.val = off 1 + pos 1; (have : pos 1 < 1 := this); omega)

end Cert.LibRowSlice
-- ==== Proof.KernelMid.lean ====
/-
  Between the two kernels, and after them: the kernel program's result as one function of its arguments.

  From the accumulator `s` (2 × 64: column sums in row 0, column sums of squares in row 1) the host computes, per
  column, the mean `s₀ / n`, the variance `s₁ / n − mean²` and the scale `rsqrt(variance + ε)`, and hands the second
  kernel the mean, the scale and the two affine parameters as 1 × 64 rows, beside the product array. With the first
  kernel's arrays (`Region0.final_y`, `final_stats`) and the second kernel's result (`Region1.final_out`) this gives
  the program's result: the normalization of `Y = lin features weight` with the variance written as the mean of the
  squares minus the square of the mean, reshaped to [8, 16384, 64] (`result_eq`).
-/
import proofs.«112230_j85169201479757_1_alg».proof.Proof.Region0Arrays
import proofs.«112230_j85169201479757_1_alg».proof.Proof.Region1Arrays
import proofs.«112230_j85169201479757_1_alg».proof.Proof.KernelHost
import proofs.«112230_j85169201479757_1_alg».proof.Proof.LibRowSlice

noncomputable section

open Idealize.ShloMosaic Idealize.ShloMosaic.TcCoe Idealize.SL.Sem Idealize.ShloMosaic.StableHlo
open Idealize.ShloMosaic.ValueIdx

namespace Cert.KernelIdeal.Mid

open Cert.KernelIdeal Cert.KernelIdeal.Gen Cert.BatchNorm Cert.KernelIdeal.Host

/-! ## The two affine parameters reach the second kernel as launched -/

section Through

variable (V : Valuation τ sig (Elt Ideal))

theorem s0_arg3 : StableHlo.after (hostOps0 (F := Ideal)) V (Proc.devRef .tc main_arg3) = V (Proc.devRef .tc main_arg3) := by
  after_results
theorem s1_arg3 : StableHlo.after (gatherOps (F := Ideal)) V (Proc.devRef .tc main_arg3) = V (Proc.devRef .tc main_arg3) := by
  after_results_simp
theorem s2_arg3 : StableHlo.after (hostOps0_2 (F := Ideal)) V (Proc.devRef .tc main_arg3) = V (Proc.devRef .tc main_arg3) := by
  after_results
theorem s0_arg4 : StableHlo.after (hostOps0 (F := Ideal)) V (Proc.devRef .tc main_arg4) = V (Proc.devRef .tc main_arg4) := by
  after_results
theorem s1_arg4 : StableHlo.after (gatherOps (F := Ideal)) V (Proc.devRef .tc main_arg4) = V (Proc.devRef .tc main_arg4) := by
  after_results_simp
theorem s2_arg4 : StableHlo.after (hostOps0_2 (F := Ideal)) V (Proc.devRef .tc main_arg4) = V (Proc.devRef .tc main_arg4) := by
  after_results

end Through

/-! ## The host operations between the kernels -/

/-- The row count and the variance offset, splat over the 64 columns. -/
abbrev rowsV : FVec Ideal S64 .f32 :=
  broadcastInDim S64 ![] bcast_S_S64 (constant (F := Ideal) S_ .f32 0x48000000#32)
abbrev epsV : FVec Ideal S64 .f32 :=
  broadcastInDim S64 ![] bcast_S_S64 (constant (F := Ideal) S_ .f32 0x3727C5AC#32)

/-- Row 0 and row 1 of the accumulator as vectors of 64. -/
def sumRow (s : FVec Ideal S2x64 .f32) : FVec Ideal S64 .f32 :=
  shapeCast S64 (extractStridedSlice S1x64 ![0, 0] s slices_S2x64_S1x64_0_0) shapeCasts_S1x64_S64
def sqRow (s : FVec Ideal S2x64 .f32) : FVec Ideal S64 .f32 :=
  shapeCast S64 (extractStridedSlice S1x64 ![1, 0] s slices_S2x64_S1x64_1_0) shapeCasts_S1x64_S64
/-- The column means and the column scales. -/
def meanV (s : FVec Ideal S2x64 .f32) : FVec Ideal S64 .f32 :=
  Host.divf (F := Ideal) (φ := .f32) (sumRow s) rowsV
def scaleV (s : FVec Ideal S2x64 .f32) : FVec Ideal S64 .f32 :=
  Host.rsqrt (F := Ideal) (φ := .f32)
    (addf (subf (Host.divf (F := Ideal) (φ := .f32) (sqRow s) rowsV) (mulf (meanV s) (meanV s))) epsV)

section Stretch

variable (W : Valuation τ sig (Elt Ideal))

theorem mid_y : StableHlo.after (hostOps1 (F := Ideal)) W (Proc.devRef .tc main_v5_0) = W (Proc.devRef .tc main_v5_0) := by
  after_results_simp
theorem mid_mean : StableHlo.after (hostOps1 (F := Ideal)) W (Proc.devRef .tc main_v19)
    = shapeCast S1x64 (meanV (W (Proc.devRef .tc main_v5_1))) shapeCasts_S64_S1x64 := by
  after_results_simp <;> rfl
theorem mid_scale : StableHlo.after (hostOps1 (F := Ideal)) W (Proc.devRef .tc main_v20)
    = shapeCast S1x64 (scaleV (W (Proc.devRef .tc main_v5_1))) shapeCasts_S64_S1x64 := by
  after_results_simp <;> rfl
theorem mid_gamma : StableHlo.after (hostOps1 (F := Ideal)) W (Proc.devRef .tc main_v21)
    = shapeCast S1x64 (W (Proc.devRef .tc main_arg3)) shapeCasts_S64_S1x64 := by
  after_results_simp <;> rfl
theorem mid_beta : StableHlo.after (hostOps1 (F := Ideal)) W (Proc.devRef .tc main_v22)
    = shapeCast S1x64 (W (Proc.devRef .tc main_arg4)) shapeCasts_S64_S1x64 := by
  after_results_simp <;> rfl
theorem tail_out : StableHlo.after (hostOps2 (F := Ideal)) W (Proc.devRef .tc main_v24)
    = shapeCast S8x16384x64 (W (Proc.devRef .tc main_v23)) shapeCasts_S131072x64_S8x16384x64 := by
  after_results <;> rfl

end Stretch

/-! ## Those values at an index -/

theorem rowsV_apply (i : S64.Idx) : rowsV i = rowsW :=
  broadcastInDim_apply _ bcast_S_S64 _ i (fun a => a.elim0) (fun a => a.elim0)
theorem epsV_apply (i : S64.Idx) : epsV i = epsW :=
  broadcastInDim_apply _ bcast_S_S64 _ i (fun a => a.elim0) (fun a => a.elim0)

theorem sumRow_apply (s : FVec Ideal S2x64 .f32) (q : Fin 64) :
    sumRow s (ix1 q) = s (ix2 (0 : Fin 2) q) :=
  (shapeCast_1a_a_apply _ _ q).trans (Cert.LibRowSlice.row_slice_apply ![0, 0] s _ (0 : Fin 2) rfl rfl 0 q)
theorem sqRow_apply (s : FVec Ideal S2x64 .f32) (q : Fin 64) :
    sqRow s (ix1 q) = s (ix2 (1 : Fin 2) q) :=
  (shapeCast_1a_a_apply _ _ q).trans (Cert.LibRowSlice.row_slice_apply ![1, 0] s _ (1 : Fin 2) rfl rfl 0 q)

theorem meanV_apply (s : FVec Ideal S2x64 .f32) (q : Fin 64) :
    meanV s (ix1 q) = Ideal.div (s (ix2 (0 : Fin 2) q)) rowsW := by
  show Ideal.div (sumRow s (ix1 q)) (rowsV (ix1 q)) = _
  rw [sumRow_apply, rowsV_apply]

theorem scaleV_apply (s : FVec Ideal S2x64 .f32) (q : Fin 64) :
    scaleV s (ix1 q)
      = Ideal.rsqrt (Ideal.div (s (ix2 (1 : Fin 2) q)) rowsW
          - Ideal.div (s (ix2 (0 : Fin 2) q)) rowsW * Ideal.div (s (ix2 (0 : Fin 2) q)) rowsW + epsW) := by
  show Ideal.rsqrt (Ideal.div (sqRow s (ix1 q)) (rowsV (ix1 q)) - meanV s (ix1 q) * meanV s (ix1 q) + epsV (ix1 q)) = _
  rw [sqRow_apply, rowsV_apply, meanV_apply, epsV_apply]

/-! ## The program's result -/

variable (m : (ℓ : Loc nD τ sig) → Buf (Elt Ideal) ℓ) (ρ : Dev nD → PrngReg)

/-- The product matrix of the kernel program: the linear layer on its features and weight. -/
abbrev Yk (c : Dev nD) : Fin 131072 → Fin 64 → EReal := fun p q =>
  lin (featK (m ((c : Thread nD τ).loc main_arg0)) (m ((c : Thread nD τ).loc main_arg1)))
    (m ((c : Thread nD τ).loc main_arg2)) p q

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  rw [gatherOps_eq, s2_arg3, s1_arg3, s0_arg3]
  all_goals rfl
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  rw [gatherOps_eq, s2_arg4, s1_arg4, s0_arg4]
  all_goals rfl

/-- The first kernel's product array, in the program's arguments. -/
theorem W4_y (c : Dev nD) (p : Fin 131072) (q : Fin 64) :
    (W4 m ρ c (Proc.devRef .tc main_v5_0) : S131072x64.Idx → EReal) (ix2 p q) = Yk m c p q := by
  have h := (W4_arr m ρ c 2).trans (Region0.final_y (V3 m ρ) c)
  refine (congrFun h (ix2 p q)).trans ?_
  show lin (V3 m ρ c main_v4) (V3 m ρ c main_arg2) p q = _
  rw [V3_feat, V3_weight]

/-- The first kernel's accumulator, in the program's arguments. -/
theorem W4_stats_row0 (c : Dev nD) (q : Fin 64) :
    (W4 m ρ c (Proc.devRef .tc main_v5_1) : S2x64.Idx → EReal) (ix2 (0 : Fin 2) q) = colSum (Yk m c) q := by
  have h := (W4_arr m ρ c 3).trans (Region0.final_stats (V3 m ρ) c)
  refine (congrFun h (ix2 (0 : Fin 2) q)).trans ?_
  refine (Region0.statsArr_row0 (V3 m ρ) c q).trans ?_
  show colSum (fun p q => lin (V3 m ρ c main_v4) (V3 m ρ c main_arg2) p q) q = _
  rw [V3_feat, V3_weight]
theorem W4_stats_row1 (c : Dev nD) (q : Fin 64) :
    (W4 m ρ c (Proc.devRef .tc main_v5_1) : S2x64.Idx → EReal) (ix2 (1 : Fin 2) q) = colSumSq (Yk m c) q := by
  have h := (W4_arr m ρ c 3).trans (Region0.final_stats (V3 m ρ) c)
  refine (congrFun h (ix2 (1 : Fin 2) q)).trans ?_
  refine (Region0.statsArr_row1 (V3 m ρ) c q).trans ?_
  show colSumSq (fun p q => lin (V3 m ρ c main_v4) (V3 m ρ c main_arg2) p q) q = _
  rw [V3_feat, V3_weight]

/-- What the second kernel finds: the product array, the mean row, the scale row and the two affine rows. -/
theorem V5_y (c : Dev nD) (p : Fin 131072) (q : Fin 64) :
    (V5 m ρ c main_v5_0 : S131072x64.Idx → EReal) (ix2 p q) = Yk m c p q := by
  show StableHlo.after hostOps1 (W4 m ρ c) (Proc.devRef .tc main_v5_0) (ix2 p q) = _
  rw [mid_y]
  exact W4_y m ρ c p q
theorem V5_mean (c : Dev nD) (q : Fin 64) :
    (V5 m ρ c main_v19 : S1x64.Idx → EReal) (ix2 (0 : Fin 1) q) = mean (Yk m c) q := by
  show StableHlo.after hostOps1 (W4 m ρ c) (Proc.devRef .tc main_v19) (ix2 (0 : Fin 1) q) = _
  rw [mid_mean]
  refine (shapeCast_a_1a_apply _ _ 0 q).trans ?_
  rw [meanV_apply, W4_stats_row0]
  rfl
theorem V5_scale (c : Dev nD) (q : Fin 64) :
    (V5 m ρ c main_v20 : S1x64.Idx → EReal) (ix2 (0 : Fin 1) q)
      = Ideal.rsqrt (varOfSquares (Yk m c) q + epsW) := by
  show StableHlo.after hostOps1 (W4 m ρ c) (Proc.devRef .tc main_v20) (ix2 (0 : Fin 1) q) = _
  rw [mid_scale]
  refine (shapeCast_a_1a_apply _ _ 0 q).trans ?_
  rw [scaleV_apply, W4_stats_row0, W4_stats_row1]
  rfl
theorem V5_gamma (c : Dev nD) (q : Fin 64) :
    (V5 m ρ c main_v21 : S1x64.Idx → EReal) (ix2 (0 : Fin 1) q) = m ((c : Thread nD τ).loc main_arg3) (ix1 q) := by
  show StableHlo.after hostOps1 (W4 m ρ c) (Proc.devRef .tc main_v21) (ix2 (0 : Fin 1) q) = _
  rw [mid_gamma]
  refine (shapeCast_a_1a_apply _ _ 0 q).trans ?_
  rw [W4_of_ne m ρ c main_arg3 (by decide), W3_arg3]
theorem V5_beta (c : Dev nD) (q : Fin 64) :
    (V5 m ρ c main_v22 : S1x64.Idx → EReal) (ix2 (0 : Fin 1) q) = m ((c : Thread nD τ).loc main_arg4) (ix1 q) := by
  show StableHlo.after hostOps1 (W4 m ρ c) (Proc.devRef .tc main_v22) (ix2 (0 : Fin 1) q) = _
  rw [mid_beta]
  refine (shapeCast_a_1a_apply _ _ 0 q).trans ?_
  rw [W4_of_ne m ρ c main_arg4 (by decide), W3_arg4]

/-- The normalized array: what the second kernel's result array holds, as a function of the program's arguments. -/
abbrev normArr (c : Dev nD) : S131072x64.Idx → EReal := fun i =>
  normalize (Yk m c) (varOfSquares (Yk m c)) (m ((c : Thread nD τ).loc main_arg3)) (m ((c : Thread nD τ).loc main_arg4))
    (i 0) (i 1)

theorem W6_out (c : Dev nD) : (W6 m ρ c (Proc.devRef .tc main_v23) : S131072x64.Idx → EReal) = normArr m c := by
  have h := (W6_arr m ρ c 5).trans (Region1.final_out (V5 m ρ) c)
  refine h.trans ?_
  funext i
  show (Region1.Yv (V5 m ρ) c (ix2 (i 0) (i 1)) - Region1.Av (V5 m ρ) c (ix2 (0 : Fin 1) (i 1)))
      * Region1.Bv (V5 m ρ) c (ix2 (0 : Fin 1) (i 1)) * Region1.Gv (V5 m ρ) c (ix2 (0 : Fin 1) (i 1))
      + Region1.Hv (V5 m ρ) c (ix2 (0 : Fin 1) (i 1)) = _
  rw [show Region1.Yv (V5 m ρ) c (ix2 (i 0) (i 1)) = Yk m c (i 0) (i 1) from V5_y m ρ c (i 0) (i 1),
    show Region1.Av (V5 m ρ) c (ix2 (0 : Fin 1) (i 1)) = mean (Yk m c) (i 1) from V5_mean m ρ c (i 1),
    show Region1.Bv (V5 m ρ) c (ix2 (0 : Fin 1) (i 1)) = Ideal.rsqrt (varOfSquares (Yk m c) (i 1) + epsW) from
      V5_scale m ρ c (i 1),
    show Region1.Gv (V5 m ρ) c (ix2 (0 : Fin 1) (i 1)) = m ((c : Thread nD τ).loc main_arg3) (ix1 (i 1)) from
      V5_gamma m ρ c (i 1),
    show Region1.Hv (V5 m ρ) c (ix2 (0 : Fin 1) (i 1)) = m ((c : Thread nD τ).loc main_arg4) (ix1 (i 1)) from
      V5_beta m ρ c (i 1)]
  rfl

/-- THE RESULT of the kernel program: the normalized array, reshaped. -/
theorem result_eq (c : Dev nD) :
    W7 m ρ c (Proc.devRef .tc main_v24)
      = shapeCast S8x16384x64 (normArr m c) shapeCasts_S131072x64_S8x16384x64 := by
  show StableHlo.after hostOps2 (W6 m ρ c) (Proc.devRef .tc main_v24) = _
  rw [tail_out, W6_out]

end Cert.KernelIdeal.Mid

end
-- ==== Proof.RefStages.lean ====
/-
  The reference program read stage by stage, at a row `p` and a channel `q`.

  The reference gathers sixteen rows per point, takes their channelwise maximum, rectifies, lays the result out as
  131072 rows of 64 channels, multiplies by the weight and normalizes every column by its own mean and variance.
  Here each of its stages is read at coordinates and identified with the corresponding function of the specification:
    * `feat`         — the channelwise maxima, as 131072 rows of 64 channels;
    * `v6_apply`     — the matrix product is the linear layer `lin` on the rectified features;
    * `v31_apply`    — the last arithmetic stage is `normalize` of the matrix product, with the variance taken as the
                        mean of the squared deviations from the column mean;
    * `feat_ne_top`  — no feature is +∞ when no input entry is: a feature is a maximum of −∞, of entries of the input
                        and of the fill value of an out-of-range gather, which reads as −∞.
-/
import proofs.«112230_j85169201479757_1_alg».proof.Proof.RefReadP
import proofs.«112230_j85169201479757_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefStages

open Cert.ReferenceIdeal Cert.ReferenceIdeal.Gen Cert.ReferenceIdeal.ReadP Cert.BatchNorm Idealize.ShloMosaic Idealize.ShloMosaic.ValueIdx

/-- The features: the channelwise maxima of the gathered rows, laid out as 131072 rows of 64 channels. -/
def feat (x0 : (⟨S8x16384x64, .f32⟩ : BufTy).Contents (Elt Ideal)) (x1 : (⟨S8x16384x16, .i32⟩ : BufTy).Contents (Elt Ideal)) : (⟨2, ![131072, 64]⟩ : Shape).Idx → EReal :=
  shapeCast S131072x64 (val_main_v3 (F := Ideal) x0 x1) shapeCasts_S8x16384x64_S131072x64

/-! ## The composed index maps, in coordinates -/

/-- The column sum at channel `q` runs over the entries `(k, q)`. -/
private theorem idx7 (q : Fin 64) (k : Fin 131072) : idx_main_v7 (ix1 q) k = ix2 k q :=
  funext fun a => Fin.ext (by match a with | ⟨0, _⟩ => rfl | ⟨1, _⟩ => rfl)

/-- The sum of squared deviations at channel `q` runs over the entries `(k, q)`. -/
private theorem idx14 (q : Fin 64) (k : Fin 131072) : idx_main_v14 (ix1 q) k = ix2 k q :=
  funext fun a => Fin.ext (by match a with | ⟨0, _⟩ => rfl | ⟨1, _⟩ => rfl)

/-- A per-channel vector broadcast along the rows reads its channel: the mean inside the deviations. -/
private theorem idx11 (p : Fin 131072) (q : Fin 64) : idx_main_v10 (idx_main_v11 (ix2 p q)) = ix1 q :=
  funext fun a => Fin.ext (by match a with | ⟨0, _⟩ => rfl)

/-- The same for the mean inside the centred value. -/
private theorem idx18 (p : Fin 131072) (q : Fin 64) : idx_main_v17 (idx_main_v18 (ix2 p q)) = ix1 q :=
  funext fun a => Fin.ext (by match a with | ⟨0, _⟩ => rfl)

/-- The same for the reciprocal standard deviation. -/
private theorem idx24 (p : Fin 131072) (q : Fin 64) : idx_main_v23 (idx_main_v24 (ix2 p q)) = ix1 q :=
  funext fun a => Fin.ext (by match a with | ⟨0, _⟩ => rfl)

/-- The same for the scale. -/
private theorem idx27 (p : Fin 131072) (q : Fin 64) : idx_main_v26 (idx_main_v27 (ix2 p q)) = ix1 q :=
  funext fun a => Fin.ext (by match a with | ⟨0, _⟩ => rfl)

/-- The same for the offset. -/
private theorem idx30 (p : Fin 131072) (q : Fin 64) : idx_main_v29 (idx_main_v30 (ix2 p q)) = ix1 q :=
  funext fun a => Fin.ext (by match a with | ⟨0, _⟩ => rfl)

/-- The matrix product at `(p, q)` reads row `p` of its left operand … -/
private theorem lidx6 (p : Fin 131072) (q k : Fin 64) : lidx_main_v6 (ix2 p q) k = ix2 p k :=
  funext fun a => Fin.ext (by match a with | ⟨0, _⟩ => rfl | ⟨1, _⟩ => rfl)

/-- … and column `q` of its right operand. -/
private theorem ridx6 (p : Fin 131072) (q k : Fin 64) : ridx_main_v6 (ix2 p q) k = ix2 k q :=
  funext fun a => Fin.ext (by match a with | ⟨0, _⟩ => rfl | ⟨1, _⟩ => rfl)

/-! ## The normalization stages -/

section Stages

variable (x0 : (⟨S8x16384x64, .f32⟩ : BufTy).Contents (Elt Ideal)) (x1 : (⟨S8x16384x16, .i32⟩ : BufTy).Contents (Elt Ideal)) (x2 : (⟨S64x64, .f32⟩ : BufTy).Contents (Elt Ideal))

/-- The column sum of the matrix product. -/
private theorem v7_at (q : Fin 64) :
    val_main_v7 (F := Ideal) x0 x1 x2 (ix1 q)
      = colSum (fun p q => val_main_v6 (F := Ideal) x0 x1 x2 (ix2 p q)) q := by
  rw [val_main_v7_apply]
  simp only [idx7]
  rfl

/-- The column mean of the matrix product. -/
private theorem v9_at (q : Fin 64) :
    val_main_v9 (F := Ideal) x0 x1 x2 (ix1 q)
      = mean (fun p q => val_main_v6 (F := Ideal) x0 x1 x2 (ix2 p q)) q := by
  rw [val_main_v9_apply, v7_at, val_main_v8_apply]
  rfl

/-- The deviation from the column mean, as the variance reads it. -/
private theorem v12_at (p : Fin 131072) (q : Fin 64) :
    val_main_v12 (F := Ideal) x0 x1 x2 (ix2 p q)
      = val_main_v6 (F := Ideal) x0 x1 x2 (ix2 p q) - mean (fun p q => val_main_v6 (F := Ideal) x0 x1 x2 (ix2 p q)) q := by
  rw [val_main_v12_apply, val_main_v11_apply, val_main_v10_apply, idx11, v9_at]
  rfl

/-- The column sum of the squared deviations. -/
private theorem v14_at (q : Fin 64) :
    val_main_v14 (F := Ideal) x0 x1 x2 (ix1 q)
      = zeroW + ∑ k : Fin 131072,
          (val_main_v6 (F := Ideal) x0 x1 x2 (ix2 k q) - mean (fun p q => val_main_v6 (F := Ideal) x0 x1 x2 (ix2 p q)) q)
            * (val_main_v6 (F := Ideal) x0 x1 x2 (ix2 k q) - mean (fun p q => val_main_v6 (F := Ideal) x0 x1 x2 (ix2 p q)) q) := by
  refine (val_main_v14_apply x0 x1 x2 (ix1 q)).trans ?_
  refine congrArg (zeroW + ·) (Finset.sum_congr rfl fun k _ => ?_)
  rw [idx14, val_main_v13_apply, v12_at]
  rfl

/-- The column variance: the mean of the squared deviations. -/
private theorem v16_at (q : Fin 64) :
    val_main_v16 (F := Ideal) x0 x1 x2 (ix1 q) = varOfDeviations (fun p q => val_main_v6 (F := Ideal) x0 x1 x2 (ix2 p q)) q := by
  rw [val_main_v16_apply, v14_at, val_main_v15_apply]
  rfl

/-- The deviation from the column mean, as the result reads it: the same mean, broadcast a second time. -/
private theorem v19_at (p : Fin 131072) (q : Fin 64) :
    val_main_v19 (F := Ideal) x0 x1 x2 (ix2 p q)
      = val_main_v6 (F := Ideal) x0 x1 x2 (ix2 p q) - mean (fun p q => val_main_v6 (F := Ideal) x0 x1 x2 (ix2 p q)) q := by
  rw [val_main_v19_apply, val_main_v18_apply, val_main_v17_apply, idx18, v9_at]
  rfl

/-- The reciprocal standard deviation of the column, broadcast along the rows. -/
private theorem v24_at (p : Fin 131072) (q : Fin 64) :
    val_main_v24 (F := Ideal) x0 x1 x2 (ix2 p q) = Ideal.rsqrt (varOfDeviations (fun p q => val_main_v6 (F := Ideal) x0 x1 x2 (ix2 p q)) q + epsW) := by
  rw [val_main_v24_apply, val_main_v23_apply, idx24, val_main_v22_apply, val_main_v21_apply, v16_at, val_main_v20_apply]
  rfl

end Stages

/-- The scale, broadcast along the rows, reads its channel. -/
private theorem v27_at (x3 : (⟨S64, .f32⟩ : BufTy).Contents (Elt Ideal)) (p : Fin 131072) (q : Fin 64) :
    val_main_v27 (F := Ideal) x3 (ix2 p q) = x3 (ix1 q) := by
  rw [val_main_v27_apply, val_main_v26_apply, idx27]

/-- The offset, broadcast along the rows, reads its channel. -/
private theorem v30_at (x4 : (⟨S64, .f32⟩ : BufTy).Contents (Elt Ideal)) (p : Fin 131072) (q : Fin 64) :
    val_main_v30 (F := Ideal) x4 (ix2 p q) = x4 (ix1 q) := by
  rw [val_main_v30_apply, val_main_v29_apply, idx30]

/-- The normalized result at (p, q), for ANY matrix the stages below main_v6 are applied to: stated with the matrix product abbreviated. -/
theorem v31_apply (x0 : (⟨S8x16384x64, .f32⟩ : BufTy).Contents (Elt Ideal)) (x1 : (⟨S8x16384x16, .i32⟩ : BufTy).Contents (Elt Ideal)) (x2 : (⟨S64x64, .f32⟩ : BufTy).Contents (Elt Ideal)) (x3 x4 : (⟨S64, .f32⟩ : BufTy).Contents (Elt Ideal)) (p : Fin 131072) (q : Fin 64) :
    val_main_v31 (F := Ideal) x0 x1 x2 x3 x4 (ix2 p q)
      = normalize (fun p q => val_main_v6 (F := Ideal) x0 x1 x2 (ix2 p q))
          (varOfDeviations (fun p q => val_main_v6 (F := Ideal) x0 x1 x2 (ix2 p q))) x3 x4 p q := by
  rw [val_main_v31_apply, val_main_v28_apply, val_main_v25_apply, v19_at, v24_at, v27_at, v30_at]
  rfl

/-! ## The linear layer -/

/-- The reshape to 131072 rows reads its operand at the index of equal row-major position. -/
private theorem rows_apply (y : S8x16384x64.Idx → EReal) (i : S131072x64.Idx) :
    shapeCast S131072x64 y shapeCasts_S8x16384x64_S131072x64 i = y (idx_main_v5 i) :=
  shapeCast_apply y shapeCasts_S8x16384x64_S131072x64 i (idx_main_v5 i)
    (by rewrite [Shape.rowMajor_val_three, Shape.rowMajor_val_two]; have h0 : (i 0).val < 131072 := (i 0).isLt; have h1 : (i 1).val < 64 := (i 1).isLt; show (((i 0).val * 64 + (i 1).val) / 1048576 * 16384 + ((i 0).val * 64 + (i 1).val) / 64 % 16384) * 64 + ((i 0).val * 64 + (i 1).val) % 64 = (i 0).val * 64 + (i 1).val; omega)

/-- A feature is the channelwise maximum at the index of equal row-major position. -/
private theorem feat_apply (x0 : (⟨S8x16384x64, .f32⟩ : BufTy).Contents (Elt Ideal)) (x1 : (⟨S8x16384x16, .i32⟩ : BufTy).Contents (Elt Ideal)) (i : S131072x64.Idx) :
    feat x0 x1 i = val_main_v3 (F := Ideal) x0 x1 (idx_main_v5 i) :=
  rows_apply _ i

/-- The matrix product is the linear layer on the rectified features. -/
theorem v6_apply (x0 : (⟨S8x16384x64, .f32⟩ : BufTy).Contents (Elt Ideal)) (x1 : (⟨S8x16384x16, .i32⟩ : BufTy).Contents (Elt Ideal)) (x2 : (⟨S64x64, .f32⟩ : BufTy).Contents (Elt Ideal)) (p : Fin 131072) (q : Fin 64) :
    val_main_v6 (F := Ideal) x0 x1 x2 (ix2 p q) = lin (feat x0 x1) x2 p q := by
  rw [val_main_v6_apply]
  unfold lin
  refine Finset.sum_congr rfl fun k _ => ?_
  rw [lidx6, ridx6, val_main_v5_apply, val_main_v4_apply, val_main_call1_v0_apply, feat_apply]
  rfl

/-! ## No feature is +∞ -/

/-- The word of −∞ reads as −∞. -/
private theorem negInfW_eq : Ideal.ofBits .f32 0xFF800000#32 = ⊥ := by
  simp [Ideal.ofBits, Ideal.ieee]

/-- The fill value of an out-of-range gather, a NaN word, reads as −∞. -/
private theorem fillW_eq : Ideal.ofBits .f32 0x7FC00000#32 = ⊥ := by
  simp [Ideal.ofBits, Ideal.ieee]

/-- A running combination stays below +∞ when its start and every element do and the combination preserves that. -/
private theorem foldl_lt_top {ι : Type} (g : EReal → EReal → EReal) (hg : ∀ a b, a < ⊤ → b < ⊤ → g a b < ⊤)
    (f : ι → EReal) (hf : ∀ i, f i < ⊤) :
    ∀ (l : List ι) (a : EReal), a < ⊤ → l.foldl (fun r i => g r (f i)) a < ⊤
  | [], _, ha => ha
  | i :: l, a, ha => foldl_lt_top g hg f hf l (g a (f i)) (hg a (f i) ha (hf i))

section NeTop

variable (x0 : (⟨S8x16384x64, .f32⟩ : BufTy).Contents (Elt Ideal)) (x1 : (⟨S8x16384x16, .i32⟩ : BufTy).Contents (Elt Ideal)) (hx : ∀ i, x0 i ≠ ⊤)

include hx

/-- A gathered entry is an entry of the input, or the fill value where the gather is out of range. -/
private theorem v1_lt_top (j : S8x262144x64.Idx) : (val_main_v1 (F := Ideal) x0 x1 j : EReal) < ⊤ := by
  rw [val_main_v1_apply]
  unfold Scalar.select
  split
  · exact lt_top_iff_ne_top.2 (hx _)
  · rw [val_main_call0_v14_apply, val_main_call0_cst_apply, Ideal.ofBits_def, fillW_eq]
    exact bot_lt_top

/-- The same entries, sixteen per point. -/
private theorem v2_lt_top (i : S8x16384x16x64.Idx) : (val_main_v2 (F := Ideal) x0 x1 i : EReal) < ⊤ := by
  rw [val_main_v2_apply]
  exact v1_lt_top x0 x1 hx _

/-- The channelwise maximum: a running maximum from −∞ over entries below +∞. -/
private theorem v3_lt_top (j : S8x16384x64.Idx) : (val_main_v3 (F := Ideal) x0 x1 j : EReal) < ⊤ := by
  unfold val_main_v3
  refine lt_of_eq_of_lt (Host.reduce_eq_foldl _ _ _ _ _ j) ?_
  refine foldl_lt_top (FloatOps.maximumf (F := Ideal) (φ := .f32))
    (fun a b ha hb => by rw [Ideal.maximumf_def]; exact max_lt ha hb)
    (val_main_v2 (F := Ideal) x0 x1) (v2_lt_top x0 x1 hx) _ _ ?_
  rw [val_main_cst_apply, Ideal.ofBits_def, negInfW_eq]
  exact bot_lt_top

end NeTop

/-- No feature is +∞ when no input entry is: a maximum of gathered entries, of the fill value and of -∞. -/
theorem feat_ne_top (x0 : (⟨S8x16384x64, .f32⟩ : BufTy).Contents (Elt Ideal)) (x1 : (⟨S8x16384x16, .i32⟩ : BufTy).Contents (Elt Ideal)) (hx : ∀ i, x0 i ≠ ⊤) : ∀ i, feat x0 x1 i ≠ ⊤ := fun i => by
  rw [feat_apply]
  exact (v3_lt_top x0 x1 hx _).ne

end Cert.ReferenceIdeal.RefStages

end
-- ==== Proof.RefRun.lean ====
/-
  The reference program's run.

  The reference's @main is a straight line of 62 host operations: the 22 operations of the gather along the point axis
  and the 3 of the rectifier stand in the place of their calls. Every weakly fair execution of it terminates with the
  result buffer holding the composition of those operations applied to the launch contents of the five arguments, and
  with the arguments unchanged. The composition is stated as the last of the stage-by-stage values of the reference
  (the value of its final reshape as a function of the five arguments).

  The operations of the two called functions are printed over typed references, which move each value between the
  type its operation states and the type its buffer carries; both are the same type, so each such operation equals the
  plain operation on the buffers (`ops_eq`, one operation at a time). Over the plain list the contents of a buffer after
  the line is the nested application of the operations' functions, with nothing in between.
-/
import proofs.«112230_j85169201479757_1_alg».proof.Proof.Gen.ReferenceIdeal
import proofs.«112230_j85169201479757_1_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 62 operations, in order, as the program spells them: a called function's operations stand in its call's
    place, over typed references. -/
abbrev ops : List (HloOp τ sig (Elt F)) :=
  [ reshape main_arg1 main_v0 rfl shapeCasts_S8x16384x16_S8x262144x1,
    TRef.nullary (TRef.of (T := ⟨S_, .i32⟩) main_call0_c) (constantI S_ 32 0#32),
    TRef.unary (TRef.of (T := ⟨S_, .i32⟩) main_call0_c) (TRef.of (T := ⟨S8x262144x1, .i32⟩) main_call0_v0) (broadcastInDim S8x262144x1 ![] bcast_S_S8x262144x1),
    TRef.binary (TRef.of (T := ⟨S8x262144x1, .i32⟩) main_v0) (TRef.of (T := ⟨S8x262144x1, .i32⟩) main_call0_v0) (TRef.of (T := ⟨S8x262144x1, .i1⟩) main_call0_v1) (cmpi .slt),
    TRef.nullary (TRef.of (T := ⟨S_, .i32⟩) main_call0_c_0) (constantI S_ 32 16384#32),
    TRef.unary (TRef.of (T := ⟨S_, .i32⟩) main_call0_c_0) (TRef.of (T := ⟨S8x262144x1, .i32⟩) main_call0_v2) (broadcastInDim S8x262144x1 ![] bcast_S_S8x262144x1),
    TRef.binary (TRef.of (T := ⟨S8x262144x1, .i32⟩) main_v0) (TRef.of (T := ⟨S8x262144x1, .i32⟩) main_call0_v2) (TRef.of (T := ⟨S8x262144x1, .i32⟩) main_call0_v3) addi,
    TRef.ternary (TRef.of (T := ⟨S8x262144x1, .i1⟩) main_call0_v1) (TRef.of (T := ⟨S8x262144x1, .i32⟩) main_call0_v3) (TRef.of (T := ⟨S8x262144x1, .i32⟩) main_v0) (TRef.of (T := ⟨S8x262144x1, .i32⟩) main_call0_v4) select,
    TRef.nullary (TRef.of (T := ⟨S1, .i32⟩) main_call0_c_1) (constantI S1 32 16383#32),
    TRef.nullary (TRef.of (T := ⟨S_, .i32⟩) main_call0_c_2) (constantI S_ 32 0#32),
    TRef.unary (TRef.of (T := ⟨S_, .i32⟩) main_call0_c_2) (TRef.of (T := ⟨S8x262144x1, .i32⟩) main_call0_v5) (broadcastInDim S8x262144x1 ![] bcast_S_S8x262144x1),
    TRef.binary (TRef.of (T := ⟨S8x262144x1, .i32⟩) main_call0_v4) (TRef.of (T := ⟨S8x262144x1, .i32⟩) main_call0_v5) (TRef.of (T := ⟨S8x262144x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S8x262144x1, .i32⟩) main_call0_v8) (broadcastInDim S8x262144x1 ![0, 1, 2] bcast_S1x1x1_S8x262144x1_0_1_2),
    TRef.binary (TRef.of (T := ⟨S8x262144x1, .i32⟩) main_call0_v4) (TRef.of (T := ⟨S8x262144x1, .i32⟩) main_call0_v8) (TRef.of (T := ⟨S8x262144x1, .i1⟩) main_call0_v9) (cmpi .sle),
    TRef.binary (TRef.of (T := ⟨S8x262144x1, .i1⟩) main_call0_v6) (TRef.of (T := ⟨S8x262144x1, .i1⟩) main_call0_v9) (TRef.of (T := ⟨S8x262144x1, .i1⟩) main_call0_v10) andi,
    TRef.nullary (TRef.of (T := ⟨S_, .i1⟩) main_call0_c_3) (constantI S_ 1 1#1),
    TRef.binary (TRef.of (T := ⟨S8x262144x1, .i1⟩) main_call0_v10) (TRef.of (T := ⟨S_, .i1⟩) main_call0_c_3) (TRef.of (T := ⟨S8x262144, .i1⟩) main_call0_v11) (fun x v => Host.reduce IntOp.andi x v reducesTo_S8x262144x1_S8x262144_d2 h_S_),
    TRef.binary (TRef.of (T := ⟨S8x16384x64, .f32⟩) main_arg0) (TRef.of (T := ⟨S8x262144x1, .i32⟩) main_call0_v4) (TRef.of (T := ⟨S8x262144x64, .f32⟩) main_call0_v12) (fun x i => Host.gather gather_S8x16384x64_S8x262144x1_S8x262144x64_2_1_0_0_1_2_1164 x i),
    TRef.unary (TRef.of (T := ⟨S8x262144, .i1⟩) main_call0_v11) (TRef.of (T := ⟨S8x262144x64, .i1⟩) main_call0_v13) (broadcastInDim S8x262144x64 ![0, 1] bcast_S8x262144_S8x262144x64_0_1),
    TRef.nullary (TRef.of (T := ⟨S_, .f32⟩) main_call0_cst) (constant S_ .f32 0x7FC00000#32),
    TRef.unary (TRef.of (T := ⟨S_, .f32⟩) main_call0_cst) (TRef.of (T := ⟨S8x262144x64, .f32⟩) main_call0_v14) (broadcastInDim S8x262144x64 ![] bcast_S_S8x262144x64),
    TRef.ternary (TRef.of (T := ⟨S8x262144x64, .i1⟩) main_call0_v13) (TRef.of (T := ⟨S8x262144x64, .f32⟩) main_call0_v12) (TRef.of (T := ⟨S8x262144x64, .f32⟩) main_call0_v14) (TRef.of (T := ⟨S8x262144x64, .f32⟩) main_v1) select,
    reshape main_v1 main_v2 rfl shapeCasts_S8x262144x64_S8x16384x16x64,
    nullary main_cst (constant S_ .f32 0xFF800000#32),
    binary main_v2 main_cst main_v3 ((fun x v => Host.reduce FloatOps.maximumf x v reducesTo_S8x16384x16x64_S8x16384x64_d2 h_S_) : (⟨S8x16384x16x64, .f32⟩ : BufTy).Contents (Elt F) → (⟨S_, .f32⟩ : BufTy).Contents (Elt F) → (⟨S8x16384x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x16384x64, .f32⟩) main_call1_v0) (broadcastInDim S8x16384x64 ![] bcast_S_S8x16384x64),
    TRef.binary (TRef.of (T := ⟨S8x16384x64, .f32⟩) main_v3) (TRef.of (T := ⟨S8x16384x64, .f32⟩) main_call1_v0) (TRef.of (T := ⟨S8x16384x64, .f32⟩) main_v4) maximumf,
    reshape main_v4 main_v5 rfl shapeCasts_S8x16384x64_S131072x64,
    binary main_v5 main_arg2 main_v6 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    nullary main_cst_0 (constant S_ .f32 0x00000000#32),
    binary main_v6 main_cst_0 main_v7 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    nullary main_cst_1 (constant S_ .f32 0x48000000#32),
    unary main_cst_1 main_v8 (broadcastInDim S64 ![] bcast_S_S64 : (⟨S_, .f32⟩ : BufTy).Contents (Elt F) → (⟨S64, .f32⟩ : BufTy).Contents (Elt F)),
    binary main_v7 main_v8 main_v9 (Host.divf : (⟨S64, .f32⟩ : BufTy).Contents (Elt F) → (⟨S64, .f32⟩ : BufTy).Contents (Elt F) → (⟨S64, .f32⟩ : BufTy).Contents (Elt F)),
    unary main_v9 main_v10 (broadcastInDim S1x64 ![1] bcast_S64_S1x64_1 : (⟨S64, .f32⟩ : BufTy).Contents (Elt F) → (⟨S1x64, .f32⟩ : BufTy).Contents (Elt F)),
    unary main_v10 main_v11 (broadcastInDim S131072x64 ![0, 1] bcast_S1x64_S131072x64_0_1 : (⟨S1x64, .f32⟩ : BufTy).Contents (Elt F) → (⟨S131072x64, .f32⟩ : BufTy).Contents (Elt F)),
    binary main_v6 main_v11 main_v12 (subf : (⟨S131072x64, .f32⟩ : BufTy).Contents (Elt F) → (⟨S131072x64, .f32⟩ : BufTy).Contents (Elt F) → (⟨S131072x64, .f32⟩ : BufTy).Contents (Elt F)),
    binary main_v12 main_v12 main_v13 (mulf : (⟨S131072x64, .f32⟩ : BufTy).Contents (Elt F) → (⟨S131072x64, .f32⟩ : BufTy).Contents (Elt F) → (⟨S131072x64, .f32⟩ : BufTy).Contents (Elt F)),
    nullary main_cst_2 (constant S_ .f32 0x00000000#32),
    binary main_v13 main_cst_2 main_v14 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    nullary main_cst_3 (constant S_ .f32 0x48000000#32),
    unary main_cst_3 main_v15 (broadcastInDim S64 ![] bcast_S_S64 : (⟨S_, .f32⟩ : BufTy).Contents (Elt F) → (⟨S64, .f32⟩ : BufTy).Contents (Elt F)),
    binary main_v14 main_v15 main_v16 (Host.divf : (⟨S64, .f32⟩ : BufTy).Contents (Elt F) → (⟨S64, .f32⟩ : BufTy).Contents (Elt F) → (⟨S64, .f32⟩ : BufTy).Contents (Elt F)),
    unary main_v9 main_v17 (broadcastInDim S1x64 ![1] bcast_S64_S1x64_1 : (⟨S64, .f32⟩ : BufTy).Contents (Elt F) → (⟨S1x64, .f32⟩ : BufTy).Contents (Elt F)),
    unary main_v17 main_v18 (broadcastInDim S131072x64 ![0, 1] bcast_S1x64_S131072x64_0_1 : (⟨S1x64, .f32⟩ : BufTy).Contents (Elt F) → (⟨S131072x64, .f32⟩ : BufTy).Contents (Elt F)),
    binary main_v6 main_v18 main_v19 (subf : (⟨S131072x64, .f32⟩ : BufTy).Contents (Elt F) → (⟨S131072x64, .f32⟩ : BufTy).Contents (Elt F) → (⟨S131072x64, .f32⟩ : BufTy).Contents (Elt F)),
    nullary main_cst_4 (constant S_ .f32 0x3727C5AC#32),
    unary main_cst_4 main_v20 (broadcastInDim S64 ![] bcast_S_S64 : (⟨S_, .f32⟩ : BufTy).Contents (Elt F) → (⟨S64, .f32⟩ : BufTy).Contents (Elt F)),
    binary main_v16 main_v20 main_v21 (addf : (⟨S64, .f32⟩ : BufTy).Contents (Elt F) → (⟨S64, .f32⟩ : BufTy).Contents (Elt F) → (⟨S64, .f32⟩ : BufTy).Contents (Elt F)),
    unary main_v21 main_v22 (Host.rsqrt : (⟨S64, .f32⟩ : BufTy).Contents (Elt F) → (⟨S64, .f32⟩ : BufTy).Contents (Elt F)),
    unary main_v22 main_v23 (broadcastInDim S1x64 ![1] bcast_S64_S1x64_1 : (⟨S64, .f32⟩ : BufTy).Contents (Elt F) → (⟨S1x64, .f32⟩ : BufTy).Contents (Elt F)),
    unary main_v23 main_v24 (broadcastInDim S131072x64 ![0, 1] bcast_S1x64_S131072x64_0_1 : (⟨S1x64, .f32⟩ : BufTy).Contents (Elt F) → (⟨S131072x64, .f32⟩ : BufTy).Contents (Elt F)),
    binary main_v19 main_v24 main_v25 (mulf : (⟨S131072x64, .f32⟩ : BufTy).Contents (Elt F) → (⟨S131072x64, .f32⟩ : BufTy).Contents (Elt F) → (⟨S131072x64, .f32⟩ : BufTy).Contents (Elt F)),
    unary main_arg3 main_v26 (broadcastInDim S1x64 ![1] bcast_S64_S1x64_1 : (⟨S64, .f32⟩ : BufTy).Contents (Elt F) → (⟨S1x64, .f32⟩ : BufTy).Contents (Elt F)),
    unary main_v26 main_v27 (broadcastInDim S131072x64 ![0, 1] bcast_S1x64_S131072x64_0_1 : (⟨S1x64, .f32⟩ : BufTy).Contents (Elt F) → (⟨S131072x64, .f32⟩ : BufTy).Contents (Elt F)),
    binary main_v25 main_v27 main_v28 (mulf : (⟨S131072x64, .f32⟩ : BufTy).Contents (Elt F) → (⟨S131072x64, .f32⟩ : BufTy).Contents (Elt F) → (⟨S131072x64, .f32⟩ : BufTy).Contents (Elt F)),
    unary main_arg4 main_v29 (broadcastInDim S1x64 ![1] bcast_S64_S1x64_1 : (⟨S64, .f32⟩ : BufTy).Contents (Elt F) → (⟨S1x64, .f32⟩ : BufTy).Contents (Elt F)),
    unary main_v29 main_v30 (broadcastInDim S131072x64 ![0, 1] bcast_S1x64_S131072x64_0_1 : (⟨S1x64, .f32⟩ : BufTy).Contents (Elt F) → (⟨S131072x64, .f32⟩ : BufTy).Contents (Elt F)),
    binary main_v28 main_v30 main_v31 (addf : (⟨S131072x64, .f32⟩ : BufTy).Contents (Elt F) → (⟨S131072x64, .f32⟩ : BufTy).Contents (Elt F) → (⟨S131072x64, .f32⟩ : BufTy).Contents (Elt F)),
    reshape main_v31 main_v32 rfl shapeCasts_S131072x64_S8x16384x64 ]

/-- The same 62 operations, every one a plain operation on the buffers. -/
abbrev opsU : List (HloOp τ sig (Elt F)) :=
  [ reshape main_arg1 main_v0 rfl shapeCasts_S8x16384x16_S8x262144x1,
    nullary main_call0_c ((constantI S_ 32 0#32) : (⟨S_, .i32⟩ : BufTy).Contents (Elt F)),
    unary main_call0_c main_call0_v0 ((broadcastInDim S8x262144x1 ![] bcast_S_S8x262144x1) : (⟨S_, .i32⟩ : BufTy).Contents (Elt F) → (⟨S8x262144x1, .i32⟩ : BufTy).Contents (Elt F)),
    binary main_v0 main_call0_v0 main_call0_v1 ((cmpi .slt) : (⟨S8x262144x1, .i32⟩ : BufTy).Contents (Elt F) → (⟨S8x262144x1, .i32⟩ : BufTy).Contents (Elt F) → (⟨S8x262144x1, .i1⟩ : BufTy).Contents (Elt F)),
    nullary main_call0_c_0 ((constantI S_ 32 16384#32) : (⟨S_, .i32⟩ : BufTy).Contents (Elt F)),
    unary main_call0_c_0 main_call0_v2 ((broadcastInDim S8x262144x1 ![] bcast_S_S8x262144x1) : (⟨S_, .i32⟩ : BufTy).Contents (Elt F) → (⟨S8x262144x1, .i32⟩ : BufTy).Contents (Elt F)),
    binary main_v0 main_call0_v2 main_call0_v3 (addi : (⟨S8x262144x1, .i32⟩ : BufTy).Contents (Elt F) → (⟨S8x262144x1, .i32⟩ : BufTy).Contents (Elt F) → (⟨S8x262144x1, .i32⟩ : BufTy).Contents (Elt F)),
    ternary main_call0_v1 main_call0_v3 main_v0 main_call0_v4 (select : (⟨S8x262144x1, .i1⟩ : BufTy).Contents (Elt F) → (⟨S8x262144x1, .i32⟩ : BufTy).Contents (Elt F) → (⟨S8x262144x1, .i32⟩ : BufTy).Contents (Elt F) → (⟨S8x262144x1, .i32⟩ : BufTy).Contents (Elt F)),
    nullary main_call0_c_1 ((constantI S1 32 16383#32) : (⟨S1, .i32⟩ : BufTy).Contents (Elt F)),
    nullary main_call0_c_2 ((constantI S_ 32 0#32) : (⟨S_, .i32⟩ : BufTy).Contents (Elt F)),
    unary main_call0_c_2 main_call0_v5 ((broadcastInDim S8x262144x1 ![] bcast_S_S8x262144x1) : (⟨S_, .i32⟩ : BufTy).Contents (Elt F) → (⟨S8x262144x1, .i32⟩ : BufTy).Contents (Elt F)),
    binary main_call0_v4 main_call0_v5 main_call0_v6 ((cmpi .sge) : (⟨S8x262144x1, .i32⟩ : BufTy).Contents (Elt F) → (⟨S8x262144x1, .i32⟩ : BufTy).Contents (Elt F) → (⟨S8x262144x1, .i1⟩ : BufTy).Contents (Elt F)),
    unary main_call0_c_1 main_call0_v7 ((broadcastInDim S1x1x1 ![2] bcast_S1_S1x1x1_2) : (⟨S1, .i32⟩ : BufTy).Contents (Elt F) → (⟨S1x1x1, .i32⟩ : BufTy).Contents (Elt F)),
    unary main_call0_v7 main_call0_v8 ((broadcastInDim S8x262144x1 ![0, 1, 2] bcast_S1x1x1_S8x262144x1_0_1_2) : (⟨S1x1x1, .i32⟩ : BufTy).Contents (Elt F) → (⟨S8x262144x1, .i32⟩ : BufTy).Contents (Elt F)),
    binary main_call0_v4 main_call0_v8 main_call0_v9 ((cmpi .sle) : (⟨S8x262144x1, .i32⟩ : BufTy).Contents (Elt F) → (⟨S8x262144x1, .i32⟩ : BufTy).Contents (Elt F) → (⟨S8x262144x1, .i1⟩ : BufTy).Contents (Elt F)),
    binary main_call0_v6 main_call0_v9 main_call0_v10 (andi : (⟨S8x262144x1, .i1⟩ : BufTy).Contents (Elt F) → (⟨S8x262144x1, .i1⟩ : BufTy).Contents (Elt F) → (⟨S8x262144x1, .i1⟩ : BufTy).Contents (Elt F)),
    nullary main_call0_c_3 ((constantI S_ 1 1#1) : (⟨S_, .i1⟩ : BufTy).Contents (Elt F)),
    binary main_call0_v10 main_call0_c_3 main_call0_v11 ((fun x v => Host.reduce IntOp.andi x v reducesTo_S8x262144x1_S8x262144_d2 h_S_) : (⟨S8x262144x1, .i1⟩ : BufTy).Contents (Elt F) → (⟨S_, .i1⟩ : BufTy).Contents (Elt F) → (⟨S8x262144, .i1⟩ : BufTy).Contents (Elt F)),
    binary main_arg0 main_call0_v4 main_call0_v12 ((fun x i => Host.gather gather_S8x16384x64_S8x262144x1_S8x262144x64_2_1_0_0_1_2_1164 x i) : (⟨S8x16384x64, .f32⟩ : BufTy).Contents (Elt F) → (⟨S8x262144x1, .i32⟩ : BufTy).Contents (Elt F) → (⟨S8x262144x64, .f32⟩ : BufTy).Contents (Elt F)),
    unary main_call0_v11 main_call0_v13 ((broadcastInDim S8x262144x64 ![0, 1] bcast_S8x262144_S8x262144x64_0_1) : (⟨S8x262144, .i1⟩ : BufTy).Contents (Elt F) → (⟨S8x262144x64, .i1⟩ : BufTy).Contents (Elt F)),
    nullary main_call0_cst ((constant S_ .f32 0x7FC00000#32) : (⟨S_, .f32⟩ : BufTy).Contents (Elt F)),
    unary main_call0_cst main_call0_v14 ((broadcastInDim S8x262144x64 ![] bcast_S_S8x262144x64) : (⟨S_, .f32⟩ : BufTy).Contents (Elt F) → (⟨S8x262144x64, .f32⟩ : BufTy).Contents (Elt F)),
    ternary main_call0_v13 main_call0_v12 main_call0_v14 main_v1 (select : (⟨S8x262144x64, .i1⟩ : BufTy).Contents (Elt F) → (⟨S8x262144x64, .f32⟩ : BufTy).Contents (Elt F) → (⟨S8x262144x64, .f32⟩ : BufTy).Contents (Elt F) → (⟨S8x262144x64, .f32⟩ : BufTy).Contents (Elt F)),
    reshape main_v1 main_v2 rfl shapeCasts_S8x262144x64_S8x16384x16x64,
    nullary main_cst (constant S_ .f32 0xFF800000#32),
    binary main_v2 main_cst main_v3 ((fun x v => Host.reduce FloatOps.maximumf x v reducesTo_S8x16384x16x64_S8x16384x64_d2 h_S_) : (⟨S8x16384x16x64, .f32⟩ : BufTy).Contents (Elt F) → (⟨S_, .f32⟩ : BufTy).Contents (Elt F) → (⟨S8x16384x64, .f32⟩ : BufTy).Contents (Elt F)),
    nullary main_call1_cst ((constant S_ .f32 0x00000000#32) : (⟨S_, .f32⟩ : BufTy).Contents (Elt F)),
    unary main_call1_cst main_call1_v0 ((broadcastInDim S8x16384x64 ![] bcast_S_S8x16384x64) : (⟨S_, .f32⟩ : BufTy).Contents (Elt F) → (⟨S8x16384x64, .f32⟩ : BufTy).Contents (Elt F)),
    binary main_v3 main_call1_v0 main_v4 (maximumf : (⟨S8x16384x64, .f32⟩ : BufTy).Contents (Elt F) → (⟨S8x16384x64, .f32⟩ : BufTy).Contents (Elt F) → (⟨S8x16384x64, .f32⟩ : BufTy).Contents (Elt F)),
    reshape main_v4 main_v5 rfl shapeCasts_S8x16384x64_S131072x64,
    binary main_v5 main_arg2 main_v6 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    nullary main_cst_0 (constant S_ .f32 0x00000000#32),
    binary main_v6 main_cst_0 main_v7 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    nullary main_cst_1 (constant S_ .f32 0x48000000#32),
    unary main_cst_1 main_v8 (broadcastInDim S64 ![] bcast_S_S64 : (⟨S_, .f32⟩ : BufTy).Contents (Elt F) → (⟨S64, .f32⟩ : BufTy).Contents (Elt F)),
    binary main_v7 main_v8 main_v9 (Host.divf : (⟨S64, .f32⟩ : BufTy).Contents (Elt F) → (⟨S64, .f32⟩ : BufTy).Contents (Elt F) → (⟨S64, .f32⟩ : BufTy).Contents (Elt F)),
    unary main_v9 main_v10 (broadcastInDim S1x64 ![1] bcast_S64_S1x64_1 : (⟨S64, .f32⟩ : BufTy).Contents (Elt F) → (⟨S1x64, .f32⟩ : BufTy).Contents (Elt F)),
    unary main_v10 main_v11 (broadcastInDim S131072x64 ![0, 1] bcast_S1x64_S131072x64_0_1 : (⟨S1x64, .f32⟩ : BufTy).Contents (Elt F) → (⟨S131072x64, .f32⟩ : BufTy).Contents (Elt F)),
    binary main_v6 main_v11 main_v12 (subf : (⟨S131072x64, .f32⟩ : BufTy).Contents (Elt F) → (⟨S131072x64, .f32⟩ : BufTy).Contents (Elt F) → (⟨S131072x64, .f32⟩ : BufTy).Contents (Elt F)),
    binary main_v12 main_v12 main_v13 (mulf : (⟨S131072x64, .f32⟩ : BufTy).Contents (Elt F) → (⟨S131072x64, .f32⟩ : BufTy).Contents (Elt F) → (⟨S131072x64, .f32⟩ : BufTy).Contents (Elt F)),
    nullary main_cst_2 (constant S_ .f32 0x00000000#32),
    binary main_v13 main_cst_2 main_v14 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    nullary main_cst_3 (constant S_ .f32 0x48000000#32),
    unary main_cst_3 main_v15 (broadcastInDim S64 ![] bcast_S_S64 : (⟨S_, .f32⟩ : BufTy).Contents (Elt F) → (⟨S64, .f32⟩ : BufTy).Contents (Elt F)),
    binary main_v14 main_v15 main_v16 (Host.divf : (⟨S64, .f32⟩ : BufTy).Contents (Elt F) → (⟨S64, .f32⟩ : BufTy).Contents (Elt F) → (⟨S64, .f32⟩ : BufTy).Contents (Elt F)),
    unary main_v9 main_v17 (broadcastInDim S1x64 ![1] bcast_S64_S1x64_1 : (⟨S64, .f32⟩ : BufTy).Contents (Elt F) → (⟨S1x64, .f32⟩ : BufTy).Contents (Elt F)),
    unary main_v17 main_v18 (broadcastInDim S131072x64 ![0, 1] bcast_S1x64_S131072x64_0_1 : (⟨S1x64, .f32⟩ : BufTy).Contents (Elt F) → (⟨S131072x64, .f32⟩ : BufTy).Contents (Elt F)),
    binary main_v6 main_v18 main_v19 (subf : (⟨S131072x64, .f32⟩ : BufTy).Contents (Elt F) → (⟨S131072x64, .f32⟩ : BufTy).Contents (Elt F) → (⟨S131072x64, .f32⟩ : BufTy).Contents (Elt F)),
    nullary main_cst_4 (constant S_ .f32 0x3727C5AC#32),
    unary main_cst_4 main_v20 (broadcastInDim S64 ![] bcast_S_S64 : (⟨S_, .f32⟩ : BufTy).Contents (Elt F) → (⟨S64, .f32⟩ : BufTy).Contents (Elt F)),
    binary main_v16 main_v20 main_v21 (addf : (⟨S64, .f32⟩ : BufTy).Contents (Elt F) → (⟨S64, .f32⟩ : BufTy).Contents (Elt F) → (⟨S64, .f32⟩ : BufTy).Contents (Elt F)),
    unary main_v21 main_v22 (Host.rsqrt : (⟨S64, .f32⟩ : BufTy).Contents (Elt F) → (⟨S64, .f32⟩ : BufTy).Contents (Elt F)),
    unary main_v22 main_v23 (broadcastInDim S1x64 ![1] bcast_S64_S1x64_1 : (⟨S64, .f32⟩ : BufTy).Contents (Elt F) → (⟨S1x64, .f32⟩ : BufTy).Contents (Elt F)),
    unary main_v23 main_v24 (broadcastInDim S131072x64 ![0, 1] bcast_S1x64_S131072x64_0_1 : (⟨S1x64, .f32⟩ : BufTy).Contents (Elt F) → (⟨S131072x64, .f32⟩ : BufTy).Contents (Elt F)),
    binary main_v19 main_v24 main_v25 (mulf : (⟨S131072x64, .f32⟩ : BufTy).Contents (Elt F) → (⟨S131072x64, .f32⟩ : BufTy).Contents (Elt F) → (⟨S131072x64, .f32⟩ : BufTy).Contents (Elt F)),
    unary main_arg3 main_v26 (broadcastInDim S1x64 ![1] bcast_S64_S1x64_1 : (⟨S64, .f32⟩ : BufTy).Contents (Elt F) → (⟨S1x64, .f32⟩ : BufTy).Contents (Elt F)),
    unary main_v26 main_v27 (broadcastInDim S131072x64 ![0, 1] bcast_S1x64_S131072x64_0_1 : (⟨S1x64, .f32⟩ : BufTy).Contents (Elt F) → (⟨S131072x64, .f32⟩ : BufTy).Contents (Elt F)),
    binary main_v25 main_v27 main_v28 (mulf : (⟨S131072x64, .f32⟩ : BufTy).Contents (Elt F) → (⟨S131072x64, .f32⟩ : BufTy).Contents (Elt F) → (⟨S131072x64, .f32⟩ : BufTy).Contents (Elt F)),
    unary main_arg4 main_v29 (broadcastInDim S1x64 ![1] bcast_S64_S1x64_1 : (⟨S64, .f32⟩ : BufTy).Contents (Elt F) → (⟨S1x64, .f32⟩ : BufTy).Contents (Elt F)),
    unary main_v29 main_v30 (broadcastInDim S131072x64 ![0, 1] bcast_S1x64_S131072x64_0_1 : (⟨S1x64, .f32⟩ : BufTy).Contents (Elt F) → (⟨S131072x64, .f32⟩ : BufTy).Contents (Elt F)),
    binary main_v28 main_v30 main_v31 (addf : (⟨S131072x64, .f32⟩ : BufTy).Contents (Elt F) → (⟨S131072x64, .f32⟩ : BufTy).Contents (Elt F) → (⟨S131072x64, .f32⟩ : BufTy).Contents (Elt F)),
    reshape main_v31 main_v32 rfl shapeCasts_S131072x64_S8x16384x64 ]

set_option maxRecDepth 8192 in
set_option maxHeartbeats 4000000 in
/-- @main is the straight line of its operations. -/
theorem main_eq (c : Dev nD) : main (F := F) c = seq ops := rfl

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- The conjunction of the gather's range tests along the unit axis, over typed references, is the plain operation: the
    two moves of its operands and the move of its result are along equations between equal types. Proved without opening
    the reduction. -/
theorem maskReduce_eq :
    (TRef.binary (TRef.of (T := ⟨S8x262144x1, .i1⟩) main_call0_v10) (TRef.of (T := ⟨S_, .i1⟩) main_call0_c_3) (TRef.of (T := ⟨S8x262144, .i1⟩) main_call0_v11) (fun x v => Host.reduce IntOp.andi x v reducesTo_S8x262144x1_S8x262144_d2 h_S_) : HloOp τ sig (Elt F))
      = binary main_call0_v10 main_call0_c_3 main_call0_v11 ((fun x v => Host.reduce IntOp.andi x v reducesTo_S8x262144x1_S8x262144_d2 h_S_) : (⟨S8x262144x1, .i1⟩ : BufTy).Contents (Elt F) → (⟨S_, .i1⟩ : BufTy).Contents (Elt F) → (⟨S8x262144, .i1⟩ : BufTy).Contents (Elt F)) := by
  refine congrArg (fun f => binary main_call0_v10 main_call0_c_3 main_call0_v11 f) ?_
  funext u v
  exact (cast_eq _ _).trans (congrArg₂ (fun x y => Host.reduce IntOp.andi x y reducesTo_S8x262144x1_S8x262144_d2 h_S_) (cast_eq _ u) (cast_eq _ v))

/-- The two spellings of the line are one list: operation by operation. -/
theorem ops_eq : (ops : List (HloOp τ sig (Elt F))) = opsU := by
  iterate 17 (refine congrArg₂ List.cons rfl ?_)
  refine congrArg₂ List.cons maskReduce_eq ?_
  iterate 44 (refine congrArg₂ List.cons rfl ?_)
  rfl

set_option maxRecDepth 8192 in
/-- Every operation touches buffers of the device only. -/
theorem opsU_sub : (opsU : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., binary_bufs_sub .., nullary_bufs_sub .., unary_bufs_sub .., binary_bufs_sub .., reshape_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub ..⟩

set_option maxRecDepth 8192 in
set_option maxHeartbeats 24800000 in
/-- On every device, from any memory with zero counters: every weakly fair execution of @main terminates with the
    result at the reference's last value as a function of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = Cert.ReferenceIdeal.ReadP.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v32).trans (by after_results_simp; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => opsU) (fun c => (main_eq c).trans (congrArg seq ops_eq)) (fun _ => opsU_sub) m ρ)

end Cert.ReferenceIdeal.RefRun

end
-- ==== Proof.FinitePre.lean ====
/-
  What the precondition gives: real entries.

  The precondition is the conjunction, over the four float arguments, of "every entry's absolute value is below +∞".
  An extended real whose absolute value (the larger of itself and its negation) is below +∞ is neither +∞ nor −∞, so it
  is a real number. Read off for the two arguments the proof uses: the input `x` and the weight `W`.
-/
import proofs.«112230_j85169201479757_1_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.FinitePre

open Idealize.ShloMosaic Idealize.ShloMosaic.ValueIdx Cert.Pre_finite_inputs

instance : Subsingleton S_.Idx := ⟨fun a b => funext fun d => d.elim0⟩

/-- The word `0x7F800000` is +∞. -/
theorem inf_word : Ideal.ofBits .f32 0x7F800000#32 = ⊤ := by simp [Ideal.ofBits, Ideal.ieee]

/-- An extended real whose absolute value compares below the +∞ word is a real number. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have h' : Ideal.cmp .olt (max x (-x)) ⊤ = 1#1 := by rw [← inf_word]; exact h
  have hlt : max x (-x) < ⊤ := by
    by_contra hn
    simp [Ideal.cmp, hn] at h'
  induction x using EReal.rec with
  | bot => simp at hlt
  | top => simp at hlt
  | coe r => exact ⟨r, rfl⟩

variable [Facts]

/-- Under the precondition every entry of the input and of the weight is a real number. -/
theorem real_entries (x0 : FVec Ideal S8x16384x64 .f32) (x1 : IVec S8x16384x16 32) (x2 : FVec Ideal S64x64 .f32)
    (x3 x4 : FVec Ideal S64 .f32) (h : fn (F := Ideal) x0 x1 x2 x3 x4 = fun _ => 1#1) :
    (∀ i, ∃ r : ℝ, x0 i = (r : EReal)) ∧ (∀ i, ∃ r : ℝ, x2 i = (r : EReal)) := by
  have h0 := congrFun h ix0
  dsimp only [fn, fn_part1] at h0
  have e1 := (IntOp.andi_eq_one.mp h0).1
  have e2 := (IntOp.andi_eq_one.mp e1).1
  obtain ⟨e3, e4⟩ := IntOp.andi_eq_one.mp e2
  refine ⟨fun i => ?_, fun i => ?_⟩
  · have hi := Host.reduce_andi_all _ _ _ _ ix0 e3 i
    refine real_of_abs_lt (x0 i) ?_
    have hb : (broadcastInDim S8x16384x64 ![] Facts.bcast_S_S8x16384x64 (constant (F := Ideal) S_ .f32 0x7F800000#32)) i
        = Ideal.ofBits .f32 0x7F800000#32 :=
      broadcastInDim_apply _ Facts.bcast_S_S8x16384x64 _ i (fun a => a.elim0) (fun a => a.elim0)
    rw [← hb]
    exact hi
  · have hi := Host.reduce_andi_all _ _ _ _ ix0 e4 i
    refine real_of_abs_lt (x2 i) ?_
    have hb : (broadcastInDim S64x64 ![] Facts.bcast_S_S64x64 (constant (F := Ideal) S_ .f32 0x7F800000#32)) i
        = Ideal.ofBits .f32 0x7F800000#32 :=
      broadcastInDim_apply _ Facts.bcast_S_S64x64 _ i (fun a => a.elim0) (fun a => a.elim0)
    rw [← hb]
    exact hi

end Cert.FinitePre

end
-- ==== Proof.lean ====
/-
  The certificate: the kernel program and the reference compute equal results at the exact extended reals.

  Both programs gather sixteen neighbour rows per point, take their channelwise maximum, rectify, multiply by the
  weight (`Y`: 131072 rows, 64 columns) and batch-normalize every column of `Y`: centre by the column mean, scale by
  `rsqrt(variance + ε)`, then the affine map. They differ in one place. The kernel program accumulates the column sums
  of `Y` and of `Y²` block by block inside its first kernel and takes the variance as the mean of the squares minus
  the square of the mean; the reference takes it as the mean of the squared deviations from the mean. On real numbers
  these are one number (`Cert.BatchNorm.var_eq`), and `Y` IS real under the precondition: the input and the weight
  are real, a gathered entry is an input entry or the fill value, which the exact reals read as −∞, a maximum of such
  entries is never +∞, and the rectifier sends −∞ to 0. So no condition on the indices is needed.

  The kernel program's run names its result (`RunValue.run`), which the host stretches and the two kernels' arrays turn
  into the normalization of `Y` with the first variance (`Mid.result_eq`); the reference's run gives its stages
  (`RefRun.run`), read at an index as the normalization of `Y` with the second variance (`RefStages.v31_apply`,
  `v6_apply`); the two feature arrays are one term (`feat_bridge`). The frames of the two kernel programs are the
  generated ones; the reference's is its run with the result dropped; the ideal pass rewrote nothing.
-/
import proofs.«112230_j85169201479757_1_alg».proof.Defs
import proofs.«112230_j85169201479757_1_alg».proof.Proof.Gen.Kernel
import proofs.«112230_j85169201479757_1_alg».proof.Proof.Gen.Kernel.Frame
import proofs.«112230_j85169201479757_1_alg».proof.Proof.Gen.KernelIdeal
import proofs.«112230_j85169201479757_1_alg».proof.Proof.Gen.KernelIdeal.Frame
import proofs.«112230_j85169201479757_1_alg».proof.Proof.Gen.ReferenceIdeal
import proofs.«112230_j85169201479757_1_alg».proof.Proof.Gen.Pre_finite_inputs
import proofs.«112230_j85169201479757_1_alg».proof.Proof.KernelRun
import proofs.«112230_j85169201479757_1_alg».proof.Proof.KernelMid
import proofs.«112230_j85169201479757_1_alg».proof.Proof.RefStages
import proofs.«112230_j85169201479757_1_alg».proof.Proof.RefRun
import proofs.«112230_j85169201479757_1_alg».proof.Proof.FinitePre
import proofs.«112230_j85169201479757_1_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx
open Cert.BatchNorm

/-- The two programs' feature arrays are the same function of the input and the indices: the same operations, printed
    twice. -/
theorem feat_bridge (x : (⟨Cert.KernelIdeal.S8x16384x64, .f32⟩ : BufTy).Contents (Elt Ideal))
    (idx : (⟨Cert.KernelIdeal.S8x16384x16, .i32⟩ : BufTy).Contents (Elt Ideal)) :
    Cert.KernelIdeal.Host.featK (F := Ideal) x idx = Cert.ReferenceIdeal.RefStages.feat x idx := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.RefRun.run m ρ)

theorem preserves : Cert.preserves_Kernel_KernelIdeal := trivial

/-- Under the precondition the product matrix is real. -/
theorem product_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (p : Fin 131072) (q : Fin 64) :
    ∃ r : ℝ, Cert.KernelIdeal.Mid.Yk m c p q = (r : EReal) := by
  obtain ⟨hx, hw⟩ := Cert.FinitePre.real_entries _ _ _ _ _ (hpre c)
  refine lin_real _ _ (fun i => ?_) hw p q
  rw [feat_bridge]
  exact Cert.ReferenceIdeal.RefStages.feat_ne_top _ _ (fun j => by obtain ⟨r, hr⟩ := hx j; rw [hr]; exact EReal.coe_ne_top r) i

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => shapeCast Cert.KernelIdeal.S8x16384x64 (Cert.KernelIdeal.Mid.normArr m c)
      Cert.KernelIdeal.Facts₀.shapeCasts_S131072x64_S8x16384x64, ?_, ?_⟩
  · exact (θ_run Cert.KernelIdeal.defs _ _).mono
      (fun _ h c => ⟨(h c).1.trans (Cert.KernelIdeal.Mid.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2]
    unfold Cert.ReferenceIdeal.ReadP.val_main_v32
    refine congrArg (fun a => shapeCast Cert.KernelIdeal.S8x16384x64 a
      Cert.KernelIdeal.Facts₀.shapeCasts_S131072x64_S8x16384x64) ?_
    funext i
    obtain ⟨p, q, rfl⟩ : ∃ (p : Fin 131072) (q : Fin 64), i = ix2 p q := ⟨i 0, i 1, eq_ix2 i⟩
    rw [Cert.ReferenceIdeal.RefStages.v31_apply]
    have hY : (fun p q => Cert.ReferenceIdeal.ReadP.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (ix2 p q))
        = Cert.KernelIdeal.Mid.Yk m c := by
      funext p q
      rw [Cert.ReferenceIdeal.RefStages.v6_apply, ← feat_bridge]
    rw [hY]
    show normalize (Cert.KernelIdeal.Mid.Yk m c) (varOfDeviations (Cert.KernelIdeal.Mid.Yk m c)) _ _ p q
      = normalize (Cert.KernelIdeal.Mid.Yk m c) (varOfSquares (Cert.KernelIdeal.Mid.Yk m c)) _ _ p q
    rw [show varOfDeviations (Cert.KernelIdeal.Mid.Yk m c) = varOfSquares (Cert.KernelIdeal.Mid.Yk m c) from
      funext fun q => (var_eq _ (product_real m hpre c) q).symm]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
